-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S2048x256 : Shape := ⟨2, ![2048, 256]⟩
abbrev S512x256 : Shape := ⟨2, ![512, 256]⟩
abbrev S2048x1 : Shape := ⟨2, ![2048, 1]⟩
abbrev S2048x512 : Shape := ⟨2, ![2048, 512]⟩
abbrev S2048 : Shape := ⟨1, ![2048]⟩

abbrev nBuf : Space → Nat
  | .hbm => 4
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .bf16⟩
  | .hbm, ⟨2, _⟩ => ⟨S8192x256, .bf16⟩
  | .hbm, ⟨3, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S2048x256, .bf16⟩
  | .local _ .vmem, ⟨7, _⟩ => ⟨S2048x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S2048x256, .f32⟩
  | .local _ .vmem, ⟨13, _⟩ => ⟨S2048x256, .f32⟩
  | .local _ .vmem, ⟨14, _⟩ => ⟨S2048x1, .f32⟩
  | .local _ .vmem, ⟨15, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_18 : BitVec 32 := 0#32
  let v31 : BitVec 1 := Scalar.cmpi .ne v30 c0_i32_18
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S2048x512_S2048 : S2048x512.Reduces [1] S2048
  shapeCasts_S2048_S2048x1 : S2048.ShapeCasts S2048x1
  broadcasts_S2048x1_S2048x256 : S2048x1.Broadcasts S2048x256
  dot_S2048x256_S512x256_S2048x512_1_1_0_0_n_n_wf : DotDims.WF S2048x256 S512x256 S2048x512 [1] [1] [0] [0] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .bf16 = 32 ∨ (Rect.block (s := S8192x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .bf16 = 32 ∨ (Rect.block (s := S8192x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .bf16 = 32 ∨ (Rect.block (s := S8192x256) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_call1_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelRegion0.lean ====
/-
  The first launch (row normalization) of the program, at ANY contents `V` of the core's buffers at the
  moment the launch is entered. Its grid has 8 points; point `t` stages rows 1024·t … 1024·t+1023 of the
  argument, and the body writes two blocks of the same rows: the rows divided by their clamped Euclidean
  norms, and the rows themselves. Nothing is carried from one point to the next, so what each output block
  holds after the body is one pure function of the input block (`out0_1`, `out0_2`), at every instance of
  the float operations.
-/
import proofs.«125116_j16844861735534_2_alg».proof.Proof.Gen.Kernel.Launch
import proofs.«125116_j16844861735534_2_alg».proof.Proof.Gen.Kernel.Skeleton
import proofs.«125116_j16844861735534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block of rows whenever the body runs, for any proof data whose
    entry contents are `V` and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 256 block: the one rectangle the body loads and stores through. -/
abbrev r0 : Rect S1024x256 := Rect.unit (s := S1024x256) ![0, 0] S1024x256.size inb_S1024x256_S1024x256_0_0

/-- The normalized rows, as the body leaves them in the first output's buffer: one store of the whole block. -/
def out0_1 (x0 : Vec F S1024x256 .f32) : Vec F S1024x256 .bf16 :=
  View.canon [⟨r0, k0_pay1 (View.ld x0 r0)⟩]

/-- The rows themselves, as the body leaves them in the second output's buffer: one store of the whole block. -/
def out0_2 (x0 : Vec F S1024x256 .f32) : Vec F S1024x256 .bf16 :=
  View.canon [⟨r0, k0_pay2 (View.ld x0 r0)⟩]

/-- One store of the whole block covers the block. -/
theorem cover0 (p0 : Vec F S1024x256 .bf16) (y : S1024x256.Idx) :
    ∃ pc ∈ ([⟨r0, p0⟩] : List (View.Piece (Elt F) S1024x256 .bf16)), y ∈ pc.1.set :=
  View.cover_of_tiled [⟨r0, p0⟩] S1024x256.size (by rfl) y

set_option maxHeartbeats 1000000 in
/-- The body on whole staging buffers — the input's at `x0`, the outputs' at anything — runs to the end, leaves
    the input's as it was and the outputs' at `out0_1 x0` and `out0_2 x0`. -/
theorem sound_kernel0 (c : Dev nD) (E : Set ℕ) (i : grid0.Coords) (arg1 : Memref sig .tc .vmem S1024x256 .f32) (harg1 : arg1.IsWhole)
    (arg2 : Memref sig .tc .vmem S1024x256 .bf16) (harg2 : arg2.IsWhole) (arg3 : Memref sig .tc .vmem S1024x256 .bf16) (harg3 : arg3.IsWhole)
    (x0 : Vec F S1024x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__norm_cast_kernel i arg1 harg1 arg2 harg2 arg3 harg3) K := by
  simp only [cc0__norm_cast_kernel_eq_skeleton]; unfold cc0__norm_cast_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-- The proof data of the first launch on core `c`: the arrays as the launch finds them; after the body at point
    `t` the input's buffer at its block, the outputs' at `out0_1`, `out0_2` of that block; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds its block, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KernelRegion1Base.lean ====
/-
  The second launch (attention over a 4 × 16 grid of query blocks and key blocks), what its three kinds of
  grid point share. Point `t` is query block `t / 16` and key block `t % 16`. At the first key block of a
  query block (`t % 16 = 0`) the body zeroes two running totals it keeps in scratch memory — the row totals of
  the weights and the weighted sums of the value rows —; at every point it adds the key block's contribution
  to both; at the last key block (`t % 16 = 15`) it divides the weighted sums by the totals and stores the
  quotient into the output block, which is written back only there.
-/
import proofs.«125116_j16844861735534_2_alg».proof.Proof.Gen.Kernel.Launch
import proofs.«125116_j16844861735534_2_alg».proof.Proof.Gen.Kernel.Skeleton
import proofs.«125116_j16844861735534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block whenever the body runs — the query block also at the
    points that do not fetch it, since its block index has not moved —, for any proof data whose entry contents
    are `V` and whose body leaves the input blocks in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- "This is the first key block": the body's first condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key block": the body's second condition. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, exactly off the last key block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the output window, through which its contents are stated. -/
abbrev VO1_3 : View sig .tc .vmem S2048x256 .f32 := (Memref.whole cc1_stg3_0 : Memref sig .tc .vmem S2048x256 .f32).view
/-- Each window's current staging buffer at point `t`, as the launch passes it to the body. -/
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The two running totals: whole scratch buffers of the kernel's own. -/
abbrev scM1_0 : Memref sig .tc .vmem S2048x1 .f32 := Memref.whole cc1_scratch0
abbrev scM1_1 : Memref sig .tc .vmem S2048x256 .f32 := Memref.whole cc1_scratch1
abbrev VS1_0 : View sig .tc .vmem S2048x1 .f32 := scM1_0.view
abbrev VS1_1 : View sig .tc .vmem S2048x256 .f32 := scM1_1.view

/-- The scoped buffers no window of this launch stages, with the two scratch buffers at `X0`, `X1`, and the
    generator register at some state: the shape of the launch's invariant. -/
def scopedWith (c : Dev nD) (X0 X1 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X0 ∗ X1) ∗ (∃ r, prngReg c r))

/-- What the launch hands the body before the first point: both scratch buffers at anything. -/
theorem PhiA1_eq (c : Dev nD) :
    (Pipeline.ΦA spec1 c : sProp 𝕄)
      = scopedWith c (iprop(∃ d, owns (c : Thread nD τ) scM1_0 fullShare d)) (iprop(∃ d, owns (c : Thread nD τ) scM1_1 fullShare d)) := by
  unfold Pipeline.ΦA scopedWith; rw [scopedRest1_eq]; simp only [scM1_0, scM1_1, owns_whole]; try rfl

end Region1

end Cert.Kernel.Hand

end
-- ==== Proof.KernelRegion1RunA.lean ====
/-
  The body of the second launch at the first key block of a query block (the two running totals start from zero): its run on whole staging buffers, with the pieces
  each buffer it stores into ends up holding found by the run itself.
-/
import proofs.«125116_j16844861735534_2_alg».proof.Proof.KernelRegion1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole buffers — the three inputs' at their contents, the output's at contents handed back untouched, the two scratch
    buffers at anything — the body runs to the end holding the inputs' as they were and each buffer it stored into
    with its pieces written (last first). -/
noncomputable def kernelRun1_A (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) :
    Σ' (LS0 : List (View.Piece (Elt F) S2048x1 .f32)), { LS1 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__flash_cos_attn_kernel i arg2 harg2 arg3 harg3 arg4 harg4 arg5 harg5 arg6 harg6 arg7 harg7) K } := by
  refine ⟨?_, ?_, fun xi3 E K => ?run⟩
  case run =>
    simp only [cc1__flash_cos_attn_kernel_eq_skeleton]; unfold cc1__flash_cos_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KernelRegion1RunB.lean ====
/-
  The body of the second launch at a key block that is neither the first nor the last (the totals are added to; the output block is not touched): its run on whole staging buffers, with the pieces
  each buffer it stores into ends up holding found by the run itself.
-/
import proofs.«125116_j16844861735534_2_alg».proof.Proof.KernelRegion1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole buffers — the three inputs' at their contents, the output's at contents handed back untouched, the two scratch
    buffers at what the point before left — the body runs to the end holding the inputs' as they were and each buffer it stored into
    with its pieces written (last first). -/
noncomputable def kernelRun1_B (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) :
    Σ' (LS0 : List (View.Piece (Elt F) S2048x1 .f32)), { LS1 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__flash_cos_attn_kernel i arg2 harg2 arg3 harg3 arg4 harg4 arg5 harg5 arg6 harg6 arg7 harg7) K } := by
  refine ⟨?_, ?_, fun xi3 E K => ?run⟩
  case run =>
    simp only [cc1__flash_cos_attn_kernel_eq_skeleton]; unfold cc1__flash_cos_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KernelRegion1RunC.lean ====
/-
  The body of the second launch at the last key block of a query block (the totals are added to, then the quotient is stored into the output block): its run on whole staging buffers, with the pieces
  each buffer it stores into ends up holding found by the run itself.
-/
import proofs.«125116_j16844861735534_2_alg».proof.Proof.KernelRegion1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole buffers — the three inputs' at their contents, the output's at anything, the two scratch
    buffers at what the point before left — the body runs to the end holding the inputs' as they were and each buffer it stored into
    with its pieces written (last first). -/
noncomputable def kernelRun1_C (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) :
    Σ' (L3 : List (View.Piece (Elt F) S2048x256 .f32)), Σ' (LS0 : List (View.Piece (Elt F) S2048x1 .f32)), { LS1 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__flash_cos_attn_kernel i arg2 harg2 arg3 harg3 arg4 harg4 arg5 harg5 arg6 harg6 arg7 harg7) K } := by
  refine ⟨?_, ?_, ?_, fun E K => ?run⟩
  case run =>
    simp only [cc1__flash_cos_attn_kernel_eq_skeleton]; unfold cc1__flash_cos_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.KernelRegion1.lean ====
/-
  The second launch, point by point, at ANY contents `V` of the core's buffers at its entry: what the two running
  totals (and, at the last key block of a query block, the output block) hold after each grid point, by recursion
  on the point; the launch's invariant carrying the totals from one point to the next; and the body obligation.
-/
import proofs.«125116_j16844861735534_2_alg».proof.Proof.KernelRegion1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The pieces the run stores into the row totals cover that buffer. -/
theorem scoverA_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) (y : S2048x1.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S2048x1.size (by sl_kernel_rfl) y
/-- What the run leaves in the row totals. -/
def soutA_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) : Vec F S2048x1 .f32 :=
  VS1_0.read (Elt F) (VS1_0.writes (Elt F) VS1_0.junk (kernelRun1_A c i arg2 harg2 arg3 harg3 arg4 harg4 arg5 harg5 arg6 harg6 arg7 harg7 hc0 hc1 x0 x1 x2).1)
/-- The pieces the run stores into the weighted sums cover that buffer. -/
theorem scoverA_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) (y : S2048x256.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S2048x256.size (by sl_kernel_rfl) y
/-- What the run leaves in the weighted sums. -/
def soutA_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) : Vec F S2048x256 .f32 :=
  VS1_1.read (Elt F) (VS1_1.writes (Elt F) VS1_1.junk (kernelRun1_A c i arg2 harg2 arg3 harg3 arg4 harg4 arg5 harg5 arg6 harg6 arg7 harg7 hc0 hc1 x0 x1 x2).2.1)

/-- The pieces the run stores into the row totals cover that buffer. -/
theorem scoverB_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) (y : S2048x1.Idx) :
    ∃ pc ∈ (kernelRun1_B c i arg2 harg2 arg3 harg3 arg4 harg4 arg5 harg5 arg6 harg6 arg7 harg7 hc0 hc1 x0 x1 x2 xs0 xs1).1, y ∈ pc.1.set :=
  View.cover_of_tiledL (kernelRun1_B c i arg2 harg2 arg3 harg3 arg4 harg4 arg5 harg5 arg6 harg6 arg7 harg7 hc0 hc1 x0 x1 x2 xs0 xs1).1 S2048x1.size (by sl_kernel_rfl) y
/-- What the run leaves in the row totals. -/
def soutB_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) : Vec F S2048x1 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).1)
/-- The pieces the run stores into the weighted sums cover that buffer. -/
theorem scoverB_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) (y : S2048x256.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S2048x256.size (by sl_kernel_rfl) y
/-- What the run leaves in the weighted sums. -/
def soutB_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) : Vec F S2048x256 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.1)

/-- The pieces the run stores into the row totals cover that buffer. -/
theorem scoverC_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) (y : S2048x1.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S2048x1.size (by sl_kernel_rfl) y
/-- What the run leaves in the row totals. -/
def soutC_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) : Vec F S2048x1 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)
/-- The pieces the run stores into the weighted sums cover that buffer. -/
theorem scoverC_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) (y : S2048x256.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S2048x256.size (by sl_kernel_rfl) y
/-- What the run leaves in the weighted sums. -/
def soutC_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) : Vec F S2048x256 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

/-- The one store into the output block covers it. -/
theorem coverC_3 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) (y : S2048x256.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S2048x256.size (by sl_kernel_rfl) y
/-- What the run leaves in the output block: the quotient. -/
def outC_3 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) : Vec F S2048x256 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

/-- A stand-in for the output block's buffer at the points that do not store into it: nothing reads it, since
    there the window is neither written back nor handed on. -/
def idleOut : Vec F S2048x256 .f32 := VO1_3.read (Elt F) (VO1_3.writes (Elt F) VO1_3.junk [])

/-- What the output block's buffer, the row totals and the weighted sums hold after the body at position `n`:
    the kind of point decided by `n % 16`, the totals read from what position `n - 1` left (except at a first key
    block, which starts from zero). -/
def outsAt1 (c : Dev nD) : (n : ℕ) → n < cfg1.N → Vec F S2048x256 .f32 × Vec F S2048x1 .f32 × Vec F S2048x256 .f32
  | 0, hn => (idleOut, soutA_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), soutA_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (idleOut, soutA_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), soutA_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (outC_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, soutC_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, soutC_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (idleOut, soutB_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, soutB_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 16 = 0) (h1 : ¬t.val % 16 = 15) :
    outsAt1 V c t.val t.isLt = (idleOut, soutA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), soutA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut, soutB_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, soutB_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, soutC_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, soutC_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point both totals at anything; afterwards at
    what the point before left. -/
def PhiS (c : Dev nD) : (n : ℕ) → n ≤ cfg1.N → sProp 𝕄
  | 0, _ => Pipeline.ΦA spec1 c
  | n + 1, hn => scopedWith c (owns (c : Thread nD τ) scM1_0 fullShare ((outsAt1 V c n hn).2.1)) (owns (c : Thread nD τ) scM1_1 fullShare ((outsAt1 V c n hn).2.2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = scopedWith c (owns (c : Thread nD τ) scM1_0 fullShare ((outsAt1 V c n hn).2.1)) (owns (c : Thread nD τ) scM1_1 fullShare ((outsAt1 V c n hn).2.2)) := rfl

theorem PhiS_pos (c : Dev nD) (n : ℕ) (h : n ≤ cfg1.N) (hz : n ≠ 0) :
    PhiS V c n h = scopedWith c (owns (c : Thread nD τ) scM1_0 fullShare ((outsAt1 V c (n - 1) (by omega)).2.1)) (owns (c : Thread nD τ) scM1_1 fullShare ((outsAt1 V c (n - 1) (by omega)).2.2)) := by
  cases n with
  | zero => exact absurd rfl hz
  | succ n => rfl

/-- The proof data of the second launch on core `c`: the arrays as the launch finds them; after the body each
    input's buffer at its block, the output's at `outsAt1`'s first component; the invariant `PhiS`; nothing owed; the
    array both the query window and the key window read split between them, the others held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; `t % 16` says which kind of point it is; the
    invariant hands the body the totals at what the point before left (at anything at the very first point) and
    takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 16 = 0
  · by_cases h1 : t.val % 16 = 15
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold soutA_0 soutA_1 scopedWith; (try dsimp only)
      by_cases hz : t.val = 0
      · rw [PhiS_castSucc V c t, PhiS_zero V c _ _ hz, PhiA1_eq]; unfold scopedWith
        iintro ⟨⟨⟨HA1, HA2, HA3, HA4, HA5, HA6, ⟨%e0, HS0⟩, ⟨%e1, HS1⟩⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HA1 HA2 HA3 HA4 HA5 HA6 HS0 HS1 Hg]
        · isplitr [Hg]
          swap; · iexact Hg
          isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scoverA_0 c _ _ _ _ _ _ _ _ _ _ _ _ _ _ _ _ _ _ )
          unfold owns; iexists _; isplitr
          swap; · iexact HS1
          ipureintro; exact View.read_writes_of_cover _ _ _ _ _ (scoverA_1 c _ _ _ _ _ _ _ _ _ _ _ _ _ _ _ _ _ _ )
        isplitl [Ho]; · iexact Ho
        isplitl [H0]; · iexact H0
        isplitl [H1]; · iexact H1
        isplitl [H2]; · iexact H2
        iexists _; iexact H3
      · rw [PhiS_castSucc V c t, PhiS_pos V c _ _ hz]; unfold scopedWith
        iintro ⟨⟨⟨HA1, HA2, HA3, HA4, HA5, HA6, HS0, HS1⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HA1 HA2 HA3 HA4 HA5 HA6 HS0 HS1 Hg]
        · isplitr [Hg]
          swap; · iexact Hg
          isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scoverA_0 c _ _ _ _ _ _ _ _ _ _ _ _ _ _ _ _ _ _ )
          unfold owns; iexists _; isplitr
          swap; · iexact HS1
          ipureintro; exact View.read_writes_of_cover _ _ _ _ _ (scoverA_1 c _ _ _ _ _ _ _ _ _ _ _ _ _ _ _ _ _ _ )
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outC_3 soutC_0 soutC_1 scopedWith; (try dsimp only)
      rw [PhiS_castSucc V c t, PhiS_pos V c _ _ hz]; unfold scopedWith
      iintro ⟨⟨⟨HA1, HA2, HA3, HA4, HA5, HA6, HS0, HS1⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HA1 HA2 HA3 HA4 HA5 HA6 HS0 HS1 Hg]
      · isplitr [Hg]
        swap; · iexact Hg
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]
        · unfold owns; iexists _; isplitr
          swap; · iexact HS0
          ipureintro; exact View.read_writes_of_cover _ _ _ _ _ (scoverC_0 c _ _ _ _ _ _ _ _ _ _ _ _ _ _ _ _ _ _ _ _ )
        unfold owns; iexists _; isplitr
        swap; · iexact HS1
        ipureintro; exact View.read_writes_of_cover _ _ _ _ _ (scoverC_1 c _ _ _ _ _ _ _ _ _ _ _ _ _ _ _ _ _ _ _ _ )
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c _ _ _ _ _ _ _ _ _ _ _ _ _ _ _ _ _ _ _ _ )
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold soutB_0 soutB_1 scopedWith; (try dsimp only)
      rw [PhiS_castSucc V c t, PhiS_pos V c _ _ hz]; unfold scopedWith
      iintro ⟨⟨⟨HA1, HA2, HA3, HA4, HA5, HA6, HS0, HS1⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HA1 HA2 HA3 HA4 HA5 HA6 HS0 HS1 Hg]
      · isplitr [Hg]
        swap; · iexact Hg
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]
        · unfold owns; iexists _; isplitr
          swap; · iexact HS0
          ipureintro; exact View.read_writes_of_cover _ _ _ _ _ (scoverB_0 c _ _ _ _ _ _ _ _ _ _ _ _ _ _ _ _ _ _ _ _ )
        unfold owns; iexists _; isplitr
        swap; · iexact HS1
        ipureintro; exact View.read_writes_of_cover _ _ _ _ _ (scoverB_1 c _ _ _ _ _ _ _ _ _ _ _ _ _ _ _ _ _ _ _ _ )
      isplitl [Ho]; · iexact Ho
      isplitl [H0]; · iexact H0
      isplitl [H1]; · iexact H1
      isplitl [H2]; · iexact H2
      iexists _; iexact H3

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- What the launch hands the body is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the totals' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scopedWith
  iintro ⟨⟨HA1, HA2, HA3, HA4, HA5, HA6, HS0, HS1⟩, Hg⟩
  isplitr [Hg]
  swap; · iexact Hg
  isplitl [HA1]; · iexact HA1
  isplitl [HA2]; · iexact HA2
  isplitl [HA3]; · iexact HA3
  isplitl [HA4]; · iexact HA4
  isplitl [HA5]; · iexact HA5
  isplitl [HA6]; · iexact HA6
  isplitl [HS0]; · iexists _; iexact HS0
  iexists _; iexact HS1

end Region1

end Cert.Kernel.Hand

end
-- ==== Proof.KernelRun.lean ====
/-
  The whole program as a run: the core's unscoped buffers between the two launches, the two launches as the
  library's region records, and the run itself — every weakly fair execution ends, faults nowhere, and leaves
  every unscoped buffer at a NAMED contents: the argument as launched, the two intermediate arrays at what
  the first launch's write-backs leave, the result at what the second launch's write-backs leave.
  The query window and the key window of the second launch read ONE array; it is split between them in two
  half shares at the launch's entry and put together again at its exit.
-/
import proofs.«125116_j16844861735534_2_alg».proof.Proof.KernelRegion0
import proofs.«125116_j16844861735534_2_alg».proof.Proof.KernelRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (arrRef)

section Run
variable (m : (ℓ : Loc nD τ sig) → Buf (Elt F) ℓ) (ρ : Dev nD → PrngReg)

/-- Core `c`'s buffers at launch. -/
abbrev W0 : Dev nD → Valuation τ sig (Elt F) := fun c b => m (c, b)
abbrev Va : (c : Dev nD) → (b : Ref sig .tc) → Buf (Elt F) ((c : Thread nD τ).loc b) := fun c b => W0 m c b
/-- After the first launch: its arrays at what its write-backs leave, every other buffer as entered. -/
def W1 (c : Dev nD) : Valuation τ sig (Elt F) :=
  Pipeline.withArrays spec0 c (W0 m c) fun w => (dat0 (Va m) c).arrAt w cfg0.N
theorem W1_arr (c : Dev nD) (w : Fin cfg0.W) :
    W1 m c (Proc.devRef .tc (Pipeline.arrRef spec0 w)) = (dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vb : (c : Dev nD) → (b : Ref sig .tc) → Buf (Elt F) ((c : Thread nD τ).loc b) := fun c b => W1 m c b
theorem hF0 (c : Dev nD) (w : Fin cfg0.W) : (dat0 (Va m) c).arrAt w cfg0.N = Vb m c (Pipeline.arrRef spec0 w) :=
  (W1_arr m c w).symm
theorem hrest0 (c : Dev nD) : ∀ b, b ∉ Finset.univ.image (Pipeline.arrRef spec0) → Vb m c b = Va m c b :=
  fun b hb => W1_of_ne m c b fun w e => hb (Finset.mem_image.mpr ⟨w, Finset.mem_univ _, e⟩)

/-- After the second launch: the result array at what its write-backs leave, every other buffer as entered
    (its three input windows write nothing back). -/
def W2 (c : Dev nD) : Valuation τ sig (Elt F) :=
  Function.update (W1 m c) (Proc.devRef .tc main_v1) ((dat1 (Vb m) c).arrAt 3 cfg1.N)
abbrev Vc : (c : Dev nD) → (b : Ref sig .tc) → Buf (Elt F) ((c : Thread nD τ).loc b) := fun c b => W2 m c b
theorem W2_main_v1 (c : Dev nD) : Vc m c main_v1 = (dat1 (Vb m) c).arrAt 3 cfg1.N := by
  show Function.update _ _ _ _ = _; rw [Function.update_self]
theorem W2_of_ne (c : Dev nD) (b : Ref sig .tc) (hb : b ≠ main_v1) : Vc m c b = Vb m c b := by
  show Function.update _ _ _ _ = _
  rw [Function.update_of_ne (StableHlo.devRef_ne_of_ne hb)]

/-- The argument reaches the end as launched: the first launch only reads it, the second bypasses it. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (Va m) c).arrAt_in 0 rfl _).trans (A_eq0 (Va m) c 0))
    _ = m ((c : Thread nD τ).loc main_arg0) := rfl

/-! ## The second launch's arrays in and out of the core's unscoped buffers -/

theorem share1_0 (c : Dev nD) : (dat1 (Vb m) c).share 0 = fullShare.left := rfl
theorem share1_1 (c : Dev nD) : (dat1 (Vb m) c).share 1 = fullShare.right := rfl
theorem share1_2 (c : Dev nD) : (dat1 (Vb m) c).share 2 = fullShare := rfl
theorem share1_3 (c : Dev nD) : (dat1 (Vb m) c).share 3 = fullShare := rfl

theorem img1 : (Finset.univ.image (Pipeline.arrRef spec1) : Finset (Ref sig .tc)) = {main_v0_0, main_v0_1, main_v1} := by decide

/-- The three distinct buffers behind the second launch's four windows, whole at contents `V'`, ARE its windows'
    arrays at contents `G` read off `V'`: the array two windows read, in two halves. -/
theorem arrays1_iff (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊣⊢ (dat1 (Vb m) c).arrays G := by
  unfold Pipeline.arrBufs Dat.arrays
  have harr : ∀ Φ : Ref sig .tc → sProp 𝕄, bigSep (Finset.univ.image (Pipeline.arrRef spec1)) Φ = iprop(Φ main_v0_0 ∗ Φ main_v0_1 ∗ Φ main_v1) :=
    fun Φ => bigSep_eq_bigSepL_of_eq [main_v0_0, main_v0_1, main_v1] (by decide) (by decide) Φ
  rw [harr, bigSep_W1]
  rw [hG 0, hG 1, hG 2, hG 3, share1_0, share1_1, share1_2, share1_3,
    (arr_whole1 0).set_eq_univ, (arr_whole1 2).set_eq_univ, (arr_whole1 3).set_eq_univ]
  constructor
  · iintro ⟨H0, H1, H3⟩
    ihave H := (pointsTo_share (PosShare.mem_left_op_right fullShare)).1 $$ H0
    icases H with ⟨Hl, Hr⟩
    isplitl [Hl]; · iexact Hl
    isplitl [Hr]; · iexact Hr
    isplitl [H1]; · iexact H1
    iexact H3
  · iintro ⟨Hl, Hr, H1, H3⟩
    isplitl [Hl Hr]
    · iapply (pointsTo_share (PosShare.mem_left_op_right fullShare)).2
      isplitl [Hl]; · iexact Hl
      iexact Hr
    isplitl [H1]; · iexact H1
    iexact H3

/-- ENTRY of the second launch: the core's unscoped buffers are its windows' arrays at the entry contents and
    the one buffer no window stages. -/
theorem entry1 (c : Dev nD) :
    (unscopedBufs c (Vb m c) : sProp 𝕄) ⊢ iprop((dat1 (Vb m) c).arrays ((dat1 (Vb m) c).arrAt · 0) ∗ Pipeline.unscopedRest spec1 c (Vb m c)) := by
  rw [Pipeline.unscopedBufs_split₀ cfgs 1 winFacts₀1.arr_unscoped c (Vb m c)]
  exact sep_mono (arrays1_iff m c (Vb m c) _ (fun w => rfl)).1 .rfl

/-- What each window's array holds after all write-backs: the inputs' their entry contents, the output's the result. -/
theorem arrAt1_N (c : Dev nD) (w : Fin cfg1.W) : (dat1 (Vb m) c).arrAt w cfg1.N = Vc m c (Pipeline.arrRef spec1 w) := by
  match w with
  | ⟨0, _⟩ => exact ((dat1 (Vb m) c).arrAt_in 0 rfl _).trans (((A_eq1 (Vb m) c 0)).trans (W2_of_ne m c _ (by decide)).symm)
  | ⟨1, _⟩ => exact ((dat1 (Vb m) c).arrAt_in 1 rfl _).trans (((A_eq1 (Vb m) c 1)).trans (W2_of_ne m c _ (by decide)).symm)
  | ⟨2, _⟩ => exact ((dat1 (Vb m) c).arrAt_in 2 rfl _).trans (((A_eq1 (Vb m) c 2)).trans (W2_of_ne m c _ (by decide)).symm)
  | ⟨3, _⟩ => exact (W2_main_v1 m c).symm

/-- EXIT of the second launch: its arrays after all write-backs and the bypassing buffer are the core's unscoped
    buffers at the exit contents. -/
theorem exit1 (c : Dev nD) :
    iprop((dat1 (Vb m) c).arrays ((dat1 (Vb m) c).arrAt · cfg1.N) ∗ Pipeline.unscopedRest spec1 c (Vb m c)) ⊢ (unscopedBufs c (Vc m c) : sProp 𝕄) := by
  rw [Pipeline.unscopedBufs_split₀ cfgs 1 winFacts₀1.arr_unscoped c (Vc m c)]
  refine sep_mono (arrays1_iff m c (Vc m c) _ (arrAt1_N m c)).2 (Entails.of_eq ?_)
  unfold Pipeline.unscopedRest
  exact bigSep_congr fun b hb => by
    rw [W2_of_ne m c b (fun e => (Finset.mem_sdiff.mp hb).2 (by rw [img1, e]; decide))]

end Run

section Run2
variable (m : (ℓ : Loc nD τ sig) → Buf (Elt F) ℓ) (ρ : Dev nD → PrngReg)

/-- No launch has a prefetched table. -/
abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the exit contents, the generator register at some state. -/
abbrev Tₙ (c : Dev nD) : sProp 𝕄 := iprop(StableHlo.held (c : Thread nD τ) (Pipeline.ucRefs τ sig) (W2 m c) ∗ ∃ r, prngReg c r)

set_option backward.isDefEq.respectTransparency.types false in
/-- The first launch over the thread state: entered from every unscoped buffer at launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W1`, left at `W2`; the array its
    query and key windows share goes in as two half shares (`entry1`) and comes back whole (`exit1`); the two running
    totals live in the invariant. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vb m) c)
    unfold Pipeline.ΦA
    iintro ⟨Hp, -, Hr⟩
    isplitl [Hr]; · iexact Hr
    iexact Hp
  hout c := by
    rw [Pipeline.ownSems0_none]
    refine (hout1 (Vb m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vb m c)) ⊢ (unscopedBufs c (Vc m c) : sProp 𝕄) := exit1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two launches in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and the final memory holds every unscoped buffer at `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W2_main_arg0 m c)) (run_main m ρ)

/-- The run with the result named: the result array ends at what the second launch's write-backs leave, the
    argument as launched. -/
theorem run_value : θ_run defs (onTc (τ := τ) (main (F := F))) ⟨m, fun _ => 0, ρ⟩ (fun r => ∀ c : Dev nD,
      r.2.mem ((c.tc : Thread nD τ).loc main_v1) = (dat1 (Vb m) c).arrAt 3 cfg1.N
      ∧ r.2.mem ((c.tc : Thread nD τ).loc main_arg0) = m ((c.tc : Thread nD τ).loc main_arg0)) :=
  (θ_run defs _ _).mono (fun _ h c => ⟨(h c _ (mem_uc main_v1 (by decide))).trans (W2_main_v1 m c),
    (h c _ (mem_uc main_arg0 (by decide))).trans (W2_main_arg0 m c)⟩) (run_main m ρ)

end Run2

end Cert.Kernel.Hand

end
-- ==== Proof.KernelIdealRegion0.lean ====
/-
  The first launch (row normalization) of the program, at ANY contents `V` of the core's buffers at the
  moment the launch is entered. Its grid has 8 points; point `t` stages rows 1024·t … 1024·t+1023 of the
  argument, and the body writes two blocks of the same rows: the rows divided by their clamped Euclidean
  norms, and the rows themselves. Nothing is carried from one point to the next, so what each output block
  holds after the body is one pure function of the input block (`out0_1`, `out0_2`), at every instance of
  the float operations.
-/
import proofs.«125116_j16844861735534_2_alg».proof.Proof.Gen.KernelIdeal.Launch
import proofs.«125116_j16844861735534_2_alg».proof.Proof.Gen.KernelIdeal.Skeleton
import proofs.«125116_j16844861735534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block of rows whenever the body runs, for any proof data whose
    entry contents are `V` and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 256 block: the one rectangle the body loads and stores through. -/
abbrev r0 : Rect S1024x256 := Rect.unit (s := S1024x256) ![0, 0] S1024x256.size inb_S1024x256_S1024x256_0_0

/-- The normalized rows, as the body leaves them in the first output's buffer: one store of the whole block. -/
def out0_1 (x0 : Vec F S1024x256 .f32) : Vec F S1024x256 .bf16 :=
  View.canon [⟨r0, k0_pay1 (View.ld x0 r0)⟩]

/-- The rows themselves, as the body leaves them in the second output's buffer: one store of the whole block. -/
def out0_2 (x0 : Vec F S1024x256 .f32) : Vec F S1024x256 .bf16 :=
  View.canon [⟨r0, k0_pay2 (View.ld x0 r0)⟩]

/-- One store of the whole block covers the block. -/
theorem cover0 (p0 : Vec F S1024x256 .bf16) (y : S1024x256.Idx) :
    ∃ pc ∈ ([⟨r0, p0⟩] : List (View.Piece (Elt F) S1024x256 .bf16)), y ∈ pc.1.set :=
  View.cover_of_tiled [⟨r0, p0⟩] S1024x256.size (by rfl) y

set_option maxHeartbeats 1000000 in
/-- The body on whole staging buffers — the input's at `x0`, the outputs' at anything — runs to the end, leaves
    the input's as it was and the outputs' at `out0_1 x0` and `out0_2 x0`. -/
theorem sound_kernel0 (c : Dev nD) (E : Set ℕ) (i : grid0.Coords) (arg1 : Memref sig .tc .vmem S1024x256 .f32) (harg1 : arg1.IsWhole)
    (arg2 : Memref sig .tc .vmem S1024x256 .bf16) (harg2 : arg2.IsWhole) (arg3 : Memref sig .tc .vmem S1024x256 .bf16) (harg3 : arg3.IsWhole)
    (x0 : Vec F S1024x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__norm_cast_kernel i arg1 harg1 arg2 harg2 arg3 harg3) K := by
  simp only [cc0__norm_cast_kernel_eq_skeleton]; unfold cc0__norm_cast_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-- The proof data of the first launch on core `c`: the arrays as the launch finds them; after the body at point
    `t` the input's buffer at its block, the outputs' at `out0_1`, `out0_2` of that block; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds its block, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdealRegion1Base.lean ====
/-
  The second launch (attention over a 4 × 16 grid of query blocks and key blocks), what its three kinds of
  grid point share. Point `t` is query block `t / 16` and key block `t % 16`. At the first key block of a
  query block (`t % 16 = 0`) the body zeroes two running totals it keeps in scratch memory — the row totals of
  the weights and the weighted sums of the value rows —; at every point it adds the key block's contribution
  to both; at the last key block (`t % 16 = 15`) it divides the weighted sums by the totals and stores the
  quotient into the output block, which is written back only there.
-/
import proofs.«125116_j16844861735534_2_alg».proof.Proof.Gen.KernelIdeal.Launch
import proofs.«125116_j16844861735534_2_alg».proof.Proof.Gen.KernelIdeal.Skeleton
import proofs.«125116_j16844861735534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block whenever the body runs — the query block also at the
    points that do not fetch it, since its block index has not moved —, for any proof data whose entry contents
    are `V` and whose body leaves the input blocks in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- "This is the first key block": the body's first condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key block": the body's second condition. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, exactly off the last key block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the output window, through which its contents are stated. -/
abbrev VO1_3 : View sig .tc .vmem S2048x256 .f32 := (Memref.whole cc1_stg3_0 : Memref sig .tc .vmem S2048x256 .f32).view
/-- Each window's current staging buffer at point `t`, as the launch passes it to the body. -/
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The two running totals: whole scratch buffers of the kernel's own. -/
abbrev scM1_0 : Memref sig .tc .vmem S2048x1 .f32 := Memref.whole cc1_scratch0
abbrev scM1_1 : Memref sig .tc .vmem S2048x256 .f32 := Memref.whole cc1_scratch1
abbrev VS1_0 : View sig .tc .vmem S2048x1 .f32 := scM1_0.view
abbrev VS1_1 : View sig .tc .vmem S2048x256 .f32 := scM1_1.view

/-- The scoped buffers no window of this launch stages, with the two scratch buffers at `X0`, `X1`, and the
    generator register at some state: the shape of the launch's invariant. -/
def scopedWith (c : Dev nD) (X0 X1 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X0 ∗ X1) ∗ (∃ r, prngReg c r))

/-- What the launch hands the body before the first point: both scratch buffers at anything. -/
theorem PhiA1_eq (c : Dev nD) :
    (Pipeline.ΦA spec1 c : sProp 𝕄)
      = scopedWith c (iprop(∃ d, owns (c : Thread nD τ) scM1_0 fullShare d)) (iprop(∃ d, owns (c : Thread nD τ) scM1_1 fullShare d)) := by
  unfold Pipeline.ΦA scopedWith; rw [scopedRest1_eq]; simp only [scM1_0, scM1_1, owns_whole]; try rfl

end Region1

end Cert.KernelIdeal.Hand

end
-- ==== Proof.KernelIdealRegion1RunA.lean ====
/-
  The body of the second launch at the first key block of a query block (the two running totals start from zero): its run on whole staging buffers, with the pieces
  each buffer it stores into ends up holding found by the run itself.
-/
import proofs.«125116_j16844861735534_2_alg».proof.Proof.KernelIdealRegion1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole buffers — the three inputs' at their contents, the output's at contents handed back untouched, the two scratch
    buffers at anything — the body runs to the end holding the inputs' as they were and each buffer it stored into
    with its pieces written (last first). -/
noncomputable def kernelRun1_A (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) :
    Σ' (LS0 : List (View.Piece (Elt F) S2048x1 .f32)), { LS1 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__flash_cos_attn_kernel i arg2 harg2 arg3 harg3 arg4 harg4 arg5 harg5 arg6 harg6 arg7 harg7) K } := by
  refine ⟨?_, ?_, fun xi3 E K => ?run⟩
  case run =>
    simp only [cc1__flash_cos_attn_kernel_eq_skeleton]; unfold cc1__flash_cos_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KernelIdealRegion1RunB.lean ====
/-
  The body of the second launch at a key block that is neither the first nor the last (the totals are added to; the output block is not touched): its run on whole staging buffers, with the pieces
  each buffer it stores into ends up holding found by the run itself.
-/
import proofs.«125116_j16844861735534_2_alg».proof.Proof.KernelIdealRegion1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole buffers — the three inputs' at their contents, the output's at contents handed back untouched, the two scratch
    buffers at what the point before left — the body runs to the end holding the inputs' as they were and each buffer it stored into
    with its pieces written (last first). -/
noncomputable def kernelRun1_B (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) :
    Σ' (LS0 : List (View.Piece (Elt F) S2048x1 .f32)), { LS1 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__flash_cos_attn_kernel i arg2 harg2 arg3 harg3 arg4 harg4 arg5 harg5 arg6 harg6 arg7 harg7) K } := by
  refine ⟨?_, ?_, fun xi3 E K => ?run⟩
  case run =>
    simp only [cc1__flash_cos_attn_kernel_eq_skeleton]; unfold cc1__flash_cos_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KernelIdealRegion1RunC.lean ====
/-
  The body of the second launch at the last key block of a query block (the totals are added to, then the quotient is stored into the output block): its run on whole staging buffers, with the pieces
  each buffer it stores into ends up holding found by the run itself.
-/
import proofs.«125116_j16844861735534_2_alg».proof.Proof.KernelIdealRegion1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole buffers — the three inputs' at their contents, the output's at anything, the two scratch
    buffers at what the point before left — the body runs to the end holding the inputs' as they were and each buffer it stored into
    with its pieces written (last first). -/
noncomputable def kernelRun1_C (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) :
    Σ' (L3 : List (View.Piece (Elt F) S2048x256 .f32)), Σ' (LS0 : List (View.Piece (Elt F) S2048x1 .f32)), { LS1 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__flash_cos_attn_kernel i arg2 harg2 arg3 harg3 arg4 harg4 arg5 harg5 arg6 harg6 arg7 harg7) K } := by
  refine ⟨?_, ?_, ?_, fun E K => ?run⟩
  case run =>
    simp only [cc1__flash_cos_attn_kernel_eq_skeleton]; unfold cc1__flash_cos_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KernelIdealRegion1.lean ====
/-
  The second launch, point by point, at ANY contents `V` of the core's buffers at its entry: what the two running
  totals (and, at the last key block of a query block, the output block) hold after each grid point, by recursion
  on the point; the launch's invariant carrying the totals from one point to the next; and the body obligation.
-/
import proofs.«125116_j16844861735534_2_alg».proof.Proof.KernelIdealRegion1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The pieces the run stores into the row totals cover that buffer. -/
theorem scoverA_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) (y : S2048x1.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S2048x1.size (by sl_kernel_rfl) y
/-- What the run leaves in the row totals. -/
def soutA_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) : Vec F S2048x1 .f32 :=
  VS1_0.read (Elt F) (VS1_0.writes (Elt F) VS1_0.junk (kernelRun1_A c i arg2 harg2 arg3 harg3 arg4 harg4 arg5 harg5 arg6 harg6 arg7 harg7 hc0 hc1 x0 x1 x2).1)
/-- The pieces the run stores into the weighted sums cover that buffer. -/
theorem scoverA_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) (y : S2048x256.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S2048x256.size (by sl_kernel_rfl) y
/-- What the run leaves in the weighted sums. -/
def soutA_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) : Vec F S2048x256 .f32 :=
  VS1_1.read (Elt F) (VS1_1.writes (Elt F) VS1_1.junk (kernelRun1_A c i arg2 harg2 arg3 harg3 arg4 harg4 arg5 harg5 arg6 harg6 arg7 harg7 hc0 hc1 x0 x1 x2).2.1)

/-- The pieces the run stores into the row totals cover that buffer. -/
theorem scoverB_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) (y : S2048x1.Idx) :
    ∃ pc ∈ (kernelRun1_B c i arg2 harg2 arg3 harg3 arg4 harg4 arg5 harg5 arg6 harg6 arg7 harg7 hc0 hc1 x0 x1 x2 xs0 xs1).1, y ∈ pc.1.set :=
  View.cover_of_tiledL (kernelRun1_B c i arg2 harg2 arg3 harg3 arg4 harg4 arg5 harg5 arg6 harg6 arg7 harg7 hc0 hc1 x0 x1 x2 xs0 xs1).1 S2048x1.size (by sl_kernel_rfl) y
/-- What the run leaves in the row totals. -/
def soutB_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) : Vec F S2048x1 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).1)
/-- The pieces the run stores into the weighted sums cover that buffer. -/
theorem scoverB_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) (y : S2048x256.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S2048x256.size (by sl_kernel_rfl) y
/-- What the run leaves in the weighted sums. -/
def soutB_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) : Vec F S2048x256 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.1)

/-- The pieces the run stores into the row totals cover that buffer. -/
theorem scoverC_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) (y : S2048x1.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S2048x1.size (by sl_kernel_rfl) y
/-- What the run leaves in the row totals. -/
def soutC_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) : Vec F S2048x1 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)
/-- The pieces the run stores into the weighted sums cover that buffer. -/
theorem scoverC_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) (y : S2048x256.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S2048x256.size (by sl_kernel_rfl) y
/-- What the run leaves in the weighted sums. -/
def soutC_1 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) : Vec F S2048x256 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

/-- The one store into the output block covers it. -/
theorem coverC_3 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) (y : S2048x256.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S2048x256.size (by sl_kernel_rfl) y
/-- What the run leaves in the output block: the quotient. -/
def outC_3 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) : Vec F S2048x256 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

/-- A stand-in for the output block's buffer at the points that do not store into it: nothing reads it, since
    there the window is neither written back nor handed on. -/
def idleOut : Vec F S2048x256 .f32 := VO1_3.read (Elt F) (VO1_3.writes (Elt F) VO1_3.junk [])

/-- What the output block's buffer, the row totals and the weighted sums hold after the body at position `n`:
    the kind of point decided by `n % 16`, the totals read from what position `n - 1` left (except at a first key
    block, which starts from zero). -/
def outsAt1 (c : Dev nD) : (n : ℕ) → n < cfg1.N → Vec F S2048x256 .f32 × Vec F S2048x1 .f32 × Vec F S2048x256 .f32
  | 0, hn => (idleOut, soutA_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), soutA_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (idleOut, soutA_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), soutA_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (outC_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, soutC_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, soutC_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (idleOut, soutB_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, soutB_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 16 = 0) (h1 : ¬t.val % 16 = 15) :
    outsAt1 V c t.val t.isLt = (idleOut, soutA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), soutA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut, soutB_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, soutB_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, soutC_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, soutC_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point both totals at anything; afterwards at
    what the point before left. -/
def PhiS (c : Dev nD) : (n : ℕ) → n ≤ cfg1.N → sProp 𝕄
  | 0, _ => Pipeline.ΦA spec1 c
  | n + 1, hn => scopedWith c (owns (c : Thread nD τ) scM1_0 fullShare ((outsAt1 V c n hn).2.1)) (owns (c : Thread nD τ) scM1_1 fullShare ((outsAt1 V c n hn).2.2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = scopedWith c (owns (c : Thread nD τ) scM1_0 fullShare ((outsAt1 V c n hn).2.1)) (owns (c : Thread nD τ) scM1_1 fullShare ((outsAt1 V c n hn).2.2)) := rfl

theorem PhiS_pos (c : Dev nD) (n : ℕ) (h : n ≤ cfg1.N) (hz : n ≠ 0) :
    PhiS V c n h = scopedWith c (owns (c : Thread nD τ) scM1_0 fullShare ((outsAt1 V c (n - 1) (by omega)).2.1)) (owns (c : Thread nD τ) scM1_1 fullShare ((outsAt1 V c (n - 1) (by omega)).2.2)) := by
  cases n with
  | zero => exact absurd rfl hz
  | succ n => rfl

/-- The proof data of the second launch on core `c`: the arrays as the launch finds them; after the body each
    input's buffer at its block, the output's at `outsAt1`'s first component; the invariant `PhiS`; nothing owed; the
    array both the query window and the key window read split between them, the others held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; `t % 16` says which kind of point it is; the
    invariant hands the body the totals at what the point before left (at anything at the very first point) and
    takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 16 = 0
  · by_cases h1 : t.val % 16 = 15
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold soutA_0 soutA_1 scopedWith; (try dsimp only)
      by_cases hz : t.val = 0
      · rw [PhiS_castSucc V c t, PhiS_zero V c _ _ hz, PhiA1_eq]; unfold scopedWith
        iintro ⟨⟨⟨HA1, HA2, HA3, HA4, HA5, HA6, ⟨%e0, HS0⟩, ⟨%e1, HS1⟩⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HA1 HA2 HA3 HA4 HA5 HA6 HS0 HS1 Hg]
        · isplitr [Hg]
          swap; · iexact Hg
          isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scoverA_0 c _ _ _ _ _ _ _ _ _ _ _ _ _ _ _ _ _ _ )
          unfold owns; iexists _; isplitr
          swap; · iexact HS1
          ipureintro; exact View.read_writes_of_cover _ _ _ _ _ (scoverA_1 c _ _ _ _ _ _ _ _ _ _ _ _ _ _ _ _ _ _ )
        isplitl [Ho]; · iexact Ho
        isplitl [H0]; · iexact H0
        isplitl [H1]; · iexact H1
        isplitl [H2]; · iexact H2
        iexists _; iexact H3
      · rw [PhiS_castSucc V c t, PhiS_pos V c _ _ hz]; unfold scopedWith
        iintro ⟨⟨⟨HA1, HA2, HA3, HA4, HA5, HA6, HS0, HS1⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HA1 HA2 HA3 HA4 HA5 HA6 HS0 HS1 Hg]
        · isplitr [Hg]
          swap; · iexact Hg
          isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scoverA_0 c _ _ _ _ _ _ _ _ _ _ _ _ _ _ _ _ _ _ )
          unfold owns; iexists _; isplitr
          swap; · iexact HS1
          ipureintro; exact View.read_writes_of_cover _ _ _ _ _ (scoverA_1 c _ _ _ _ _ _ _ _ _ _ _ _ _ _ _ _ _ _ )
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outC_3 soutC_0 soutC_1 scopedWith; (try dsimp only)
      rw [PhiS_castSucc V c t, PhiS_pos V c _ _ hz]; unfold scopedWith
      iintro ⟨⟨⟨HA1, HA2, HA3, HA4, HA5, HA6, HS0, HS1⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HA1 HA2 HA3 HA4 HA5 HA6 HS0 HS1 Hg]
      · isplitr [Hg]
        swap; · iexact Hg
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]
        · unfold owns; iexists _; isplitr
          swap; · iexact HS0
          ipureintro; exact View.read_writes_of_cover _ _ _ _ _ (scoverC_0 c _ _ _ _ _ _ _ _ _ _ _ _ _ _ _ _ _ _ _ _ )
        unfold owns; iexists _; isplitr
        swap; · iexact HS1
        ipureintro; exact View.read_writes_of_cover _ _ _ _ _ (scoverC_1 c _ _ _ _ _ _ _ _ _ _ _ _ _ _ _ _ _ _ _ _ )
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c _ _ _ _ _ _ _ _ _ _ _ _ _ _ _ _ _ _ _ _ )
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold soutB_0 soutB_1 scopedWith; (try dsimp only)
      rw [PhiS_castSucc V c t, PhiS_pos V c _ _ hz]; unfold scopedWith
      iintro ⟨⟨⟨HA1, HA2, HA3, HA4, HA5, HA6, HS0, HS1⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HA1 HA2 HA3 HA4 HA5 HA6 HS0 HS1 Hg]
      · isplitr [Hg]
        swap; · iexact Hg
        isplitl [HA1]; · iexact HA1
        isplitl [HA2]; · iexact HA2
        isplitl [HA3]; · iexact HA3
        isplitl [HA4]; · iexact HA4
        isplitl [HA5]; · iexact HA5
        isplitl [HA6]; · iexact HA6
        isplitl [HS0]
        · unfold owns; iexists _; isplitr
          swap; · iexact HS0
          ipureintro; exact View.read_writes_of_cover _ _ _ _ _ (scoverB_0 c _ _ _ _ _ _ _ _ _ _ _ _ _ _ _ _ _ _ _ _ )
        unfold owns; iexists _; isplitr
        swap; · iexact HS1
        ipureintro; exact View.read_writes_of_cover _ _ _ _ _ (scoverB_1 c _ _ _ _ _ _ _ _ _ _ _ _ _ _ _ _ _ _ _ _ )
      isplitl [Ho]; · iexact Ho
      isplitl [H0]; · iexact H0
      isplitl [H1]; · iexact H1
      isplitl [H2]; · iexact H2
      iexists _; iexact H3

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- What the launch hands the body is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the totals' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scopedWith
  iintro ⟨⟨HA1, HA2, HA3, HA4, HA5, HA6, HS0, HS1⟩, Hg⟩
  isplitr [Hg]
  swap; · iexact Hg
  isplitl [HA1]; · iexact HA1
  isplitl [HA2]; · iexact HA2
  isplitl [HA3]; · iexact HA3
  isplitl [HA4]; · iexact HA4
  isplitl [HA5]; · iexact HA5
  isplitl [HA6]; · iexact HA6
  isplitl [HS0]; · iexists _; iexact HS0
  iexists _; iexact HS1

end Region1

end Cert.KernelIdeal.Hand

end
-- ==== Proof.KernelIdealRun.lean ====
/-
  The whole program as a run: the core's unscoped buffers between the two launches, the two launches as the
  library's region records, and the run itself — every weakly fair execution ends, faults nowhere, and leaves
  every unscoped buffer at a NAMED contents: the argument as launched, the two intermediate arrays at what
  the first launch's write-backs leave, the result at what the second launch's write-backs leave.
  The query window and the key window of the second launch read ONE array; it is split between them in two
  half shares at the launch's entry and put together again at its exit.
-/
import proofs.«125116_j16844861735534_2_alg».proof.Proof.KernelIdealRegion0
import proofs.«125116_j16844861735534_2_alg».proof.Proof.KernelIdealRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (arrRef)

section Run
variable (m : (ℓ : Loc nD τ sig) → Buf (Elt F) ℓ) (ρ : Dev nD → PrngReg)

/-- Core `c`'s buffers at launch. -/
abbrev W0 : Dev nD → Valuation τ sig (Elt F) := fun c b => m (c, b)
abbrev Va : (c : Dev nD) → (b : Ref sig .tc) → Buf (Elt F) ((c : Thread nD τ).loc b) := fun c b => W0 m c b
/-- After the first launch: its arrays at what its write-backs leave, every other buffer as entered. -/
def W1 (c : Dev nD) : Valuation τ sig (Elt F) :=
  Pipeline.withArrays spec0 c (W0 m c) fun w => (dat0 (Va m) c).arrAt w cfg0.N
theorem W1_arr (c : Dev nD) (w : Fin cfg0.W) :
    W1 m c (Proc.devRef .tc (Pipeline.arrRef spec0 w)) = (dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vb : (c : Dev nD) → (b : Ref sig .tc) → Buf (Elt F) ((c : Thread nD τ).loc b) := fun c b => W1 m c b
theorem hF0 (c : Dev nD) (w : Fin cfg0.W) : (dat0 (Va m) c).arrAt w cfg0.N = Vb m c (Pipeline.arrRef spec0 w) :=
  (W1_arr m c w).symm
theorem hrest0 (c : Dev nD) : ∀ b, b ∉ Finset.univ.image (Pipeline.arrRef spec0) → Vb m c b = Va m c b :=
  fun b hb => W1_of_ne m c b fun w e => hb (Finset.mem_image.mpr ⟨w, Finset.mem_univ _, e⟩)

/-- After the second launch: the result array at what its write-backs leave, every other buffer as entered
    (its three input windows write nothing back). -/
def W2 (c : Dev nD) : Valuation τ sig (Elt F) :=
  Function.update (W1 m c) (Proc.devRef .tc main_v1) ((dat1 (Vb m) c).arrAt 3 cfg1.N)
abbrev Vc : (c : Dev nD) → (b : Ref sig .tc) → Buf (Elt F) ((c : Thread nD τ).loc b) := fun c b => W2 m c b
theorem W2_main_v1 (c : Dev nD) : Vc m c main_v1 = (dat1 (Vb m) c).arrAt 3 cfg1.N := by
  show Function.update _ _ _ _ = _; rw [Function.update_self]
theorem W2_of_ne (c : Dev nD) (b : Ref sig .tc) (hb : b ≠ main_v1) : Vc m c b = Vb m c b := by
  show Function.update _ _ _ _ = _
  rw [Function.update_of_ne (StableHlo.devRef_ne_of_ne hb)]

/-- The argument reaches the end as launched: the first launch only reads it, the second bypasses it. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (Va m) c).arrAt_in 0 rfl _).trans (A_eq0 (Va m) c 0))
    _ = m ((c : Thread nD τ).loc main_arg0) := rfl

/-! ## The second launch's arrays in and out of the core's unscoped buffers -/

theorem share1_0 (c : Dev nD) : (dat1 (Vb m) c).share 0 = fullShare.left := rfl
theorem share1_1 (c : Dev nD) : (dat1 (Vb m) c).share 1 = fullShare.right := rfl
theorem share1_2 (c : Dev nD) : (dat1 (Vb m) c).share 2 = fullShare := rfl
theorem share1_3 (c : Dev nD) : (dat1 (Vb m) c).share 3 = fullShare := rfl

theorem img1 : (Finset.univ.image (Pipeline.arrRef spec1) : Finset (Ref sig .tc)) = {main_v0_0, main_v0_1, main_v1} := by decide

/-- The three distinct buffers behind the second launch's four windows, whole at contents `V'`, ARE its windows'
    arrays at contents `G` read off `V'`: the array two windows read, in two halves. -/
theorem arrays1_iff (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊣⊢ (dat1 (Vb m) c).arrays G := by
  unfold Pipeline.arrBufs Dat.arrays
  have harr : ∀ Φ : Ref sig .tc → sProp 𝕄, bigSep (Finset.univ.image (Pipeline.arrRef spec1)) Φ = iprop(Φ main_v0_0 ∗ Φ main_v0_1 ∗ Φ main_v1) :=
    fun Φ => bigSep_eq_bigSepL_of_eq [main_v0_0, main_v0_1, main_v1] (by decide) (by decide) Φ
  rw [harr, bigSep_W1]
  rw [hG 0, hG 1, hG 2, hG 3, share1_0, share1_1, share1_2, share1_3,
    (arr_whole1 0).set_eq_univ, (arr_whole1 2).set_eq_univ, (arr_whole1 3).set_eq_univ]
  constructor
  · iintro ⟨H0, H1, H3⟩
    ihave H := (pointsTo_share (PosShare.mem_left_op_right fullShare)).1 $$ H0
    icases H with ⟨Hl, Hr⟩
    isplitl [Hl]; · iexact Hl
    isplitl [Hr]; · iexact Hr
    isplitl [H1]; · iexact H1
    iexact H3
  · iintro ⟨Hl, Hr, H1, H3⟩
    isplitl [Hl Hr]
    · iapply (pointsTo_share (PosShare.mem_left_op_right fullShare)).2
      isplitl [Hl]; · iexact Hl
      iexact Hr
    isplitl [H1]; · iexact H1
    iexact H3

/-- ENTRY of the second launch: the core's unscoped buffers are its windows' arrays at the entry contents and
    the one buffer no window stages. -/
theorem entry1 (c : Dev nD) :
    (unscopedBufs c (Vb m c) : sProp 𝕄) ⊢ iprop((dat1 (Vb m) c).arrays ((dat1 (Vb m) c).arrAt · 0) ∗ Pipeline.unscopedRest spec1 c (Vb m c)) := by
  rw [Pipeline.unscopedBufs_split₀ cfgs 1 winFacts₀1.arr_unscoped c (Vb m c)]
  exact sep_mono (arrays1_iff m c (Vb m c) _ (fun w => rfl)).1 .rfl

/-- What each window's array holds after all write-backs: the inputs' their entry contents, the output's the result. -/
theorem arrAt1_N (c : Dev nD) (w : Fin cfg1.W) : (dat1 (Vb m) c).arrAt w cfg1.N = Vc m c (Pipeline.arrRef spec1 w) := by
  match w with
  | ⟨0, _⟩ => exact ((dat1 (Vb m) c).arrAt_in 0 rfl _).trans (((A_eq1 (Vb m) c 0)).trans (W2_of_ne m c _ (by decide)).symm)
  | ⟨1, _⟩ => exact ((dat1 (Vb m) c).arrAt_in 1 rfl _).trans (((A_eq1 (Vb m) c 1)).trans (W2_of_ne m c _ (by decide)).symm)
  | ⟨2, _⟩ => exact ((dat1 (Vb m) c).arrAt_in 2 rfl _).trans (((A_eq1 (Vb m) c 2)).trans (W2_of_ne m c _ (by decide)).symm)
  | ⟨3, _⟩ => exact (W2_main_v1 m c).symm

/-- EXIT of the second launch: its arrays after all write-backs and the bypassing buffer are the core's unscoped
    buffers at the exit contents. -/
theorem exit1 (c : Dev nD) :
    iprop((dat1 (Vb m) c).arrays ((dat1 (Vb m) c).arrAt · cfg1.N) ∗ Pipeline.unscopedRest spec1 c (Vb m c)) ⊢ (unscopedBufs c (Vc m c) : sProp 𝕄) := by
  rw [Pipeline.unscopedBufs_split₀ cfgs 1 winFacts₀1.arr_unscoped c (Vc m c)]
  refine sep_mono (arrays1_iff m c (Vc m c) _ (arrAt1_N m c)).2 (Entails.of_eq ?_)
  unfold Pipeline.unscopedRest
  exact bigSep_congr fun b hb => by
    rw [W2_of_ne m c b (fun e => (Finset.mem_sdiff.mp hb).2 (by rw [img1, e]; decide))]

end Run

section Run2
variable (m : (ℓ : Loc nD τ sig) → Buf (Elt F) ℓ) (ρ : Dev nD → PrngReg)

/-- No launch has a prefetched table. -/
abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the exit contents, the generator register at some state. -/
abbrev Tₙ (c : Dev nD) : sProp 𝕄 := iprop(StableHlo.held (c : Thread nD τ) (Pipeline.ucRefs τ sig) (W2 m c) ∗ ∃ r, prngReg c r)

set_option backward.isDefEq.respectTransparency.types false in
/-- The first launch over the thread state: entered from every unscoped buffer at launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W1`, left at `W2`; the array its
    query and key windows share goes in as two half shares (`entry1`) and comes back whole (`exit1`); the two running
    totals live in the invariant. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vb m) c)
    unfold Pipeline.ΦA
    iintro ⟨Hp, -, Hr⟩
    isplitl [Hr]; · iexact Hr
    iexact Hp
  hout c := by
    rw [Pipeline.ownSems0_none]
    refine (hout1 (Vb m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vb m c)) ⊢ (unscopedBufs c (Vc m c) : sProp 𝕄) := exit1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two launches in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and the final memory holds every unscoped buffer at `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W2_main_arg0 m c)) (run_main m ρ)

/-- The run with the result named: the result array ends at what the second launch's write-backs leave, the
    argument as launched. -/
theorem run_value : θ_run defs (onTc (τ := τ) (main (F := F))) ⟨m, fun _ => 0, ρ⟩ (fun r => ∀ c : Dev nD,
      r.2.mem ((c.tc : Thread nD τ).loc main_v1) = (dat1 (Vb m) c).arrAt 3 cfg1.N
      ∧ r.2.mem ((c.tc : Thread nD τ).loc main_arg0) = m ((c.tc : Thread nD τ).loc main_arg0)) :=
  (θ_run defs _ _).mono (fun _ h c => ⟨(h c _ (mem_uc main_v1 (by decide))).trans (W2_main_v1 m c),
    (h c _ (mem_uc main_arg0 (by decide))).trans (W2_main_arg0 m c)⟩) (run_main m ρ)

end Run2

end Cert.KernelIdeal.Hand

end
-- ==== Proof.Spec.lean ====
/-
  The mathematics of the certificate, with no program in sight.

  For a matrix `x` of 8192 rows and 256 columns over the extended reals:
  * `nrm x i` is the Euclidean norm of row `i`, clamped below at the constant `eps`;
  * `xn x i d = x i d / nrm x i` is the row-normalized matrix;
  * `W x i j = (∑ d, xn x i d * xn x j d) / sigma` is the scaled cosine similarity of rows `i` and `j`;
  * `attnShift x i d` is softmax attention with a CONSTANT shift `bound` under the exponential:
      (∑ j, exp (W i j - bound) * x j d) / (∑ j, exp (W i j - bound));
  * `attnMax x i d` is softmax attention with the ROW MAXIMUM `rowMax x i` as the shift, each weight
    divided by the row's total before the weighted sum:
      ∑ j, (exp (W i j - rowMax i) / ∑ k, exp (W i k - rowMax i)) * x j d.
  On matrices of real entries the two agree (the shift cancels in the quotient): Proof/SoftmaxShift.lean.
-/
import Idealize.ShloMosaic.PureOps.Ideal
import Idealize.ShloMosaic.PureOps.Ideal.Laws

noncomputable section

namespace Cert.Attn

open Idealize.ShloMosaic

/-- A matrix of 8192 rows and 256 columns of extended reals. -/
abbrev Mat : Type := Fin 8192 → Fin 256 → EReal

/-- The lower clamp of a row norm: the f32 nearest to 1e-12. -/
def eps : EReal := Ideal.ofBits .f32 0x2B8CBCCC#32
/-- The temperature: the f32 nearest to 0.1. -/
def sigma : EReal := Ideal.ofBits .f32 0x3DCCCCCD#32
/-- The constant shift under the exponential: 10.5. -/
def bound : EReal := Ideal.ofBits .f32 0x41280000#32

/-- Row `i`'s Euclidean norm, clamped below at `eps`. -/
def nrm (x : Mat) (i : Fin 8192) : EReal := max eps (Ideal.sqrt (∑ d : Fin 256, x i d * x i d))

/-- The row-normalized matrix. -/
def xn (x : Mat) (i : Fin 8192) (d : Fin 256) : EReal := Ideal.div (x i d) (nrm x i)

/-- The scaled cosine similarity of rows `i` and `j`. -/
def W (x : Mat) (i j : Fin 8192) : EReal := Ideal.div (∑ d : Fin 256, xn x i d * xn x j d) sigma

/-- Attention with the constant shift `bound`: weighted sum over weight total. -/
def attnShift (x : Mat) (i : Fin 8192) (d : Fin 256) : EReal :=
  Ideal.div (∑ j : Fin 8192, Ideal.exp (W x i j - bound) * x j d) (∑ j : Fin 8192, Ideal.exp (W x i j - bound))

/-- The maximum of row `i` of `W`, folded from -∞. -/
def rowMax (x : Mat) (i : Fin 8192) : EReal := (Finset.univ : Finset (Fin 8192)).fold max ⊥ (fun j => W x i j)

/-- Attention with the row maximum as the shift, each weight normalized before the weighted sum. -/
def attnMax (x : Mat) (i : Fin 8192) (d : Fin 256) : EReal :=
  ∑ j : Fin 8192, Ideal.div (Ideal.exp (W x i j - rowMax x i)) (∑ k : Fin 8192, Ideal.exp (W x i k - rowMax x i)) * x j d

/-- Every entry is a real number. -/
def Finite (x : Mat) : Prop := ∀ i d, x i d ≠ ⊤ ∧ x i d ≠ ⊥

end Cert.Attn

end
-- ==== Proof.KernelPayloads.lean ====
/-
  The kernel's payloads read at an index, on the extended reals.

  The first kernel writes each entry of its block over the block row's Euclidean norm clamped
  below (and a copy of the block); the second kernel's weights are the exponentials of the scaled
  similarities minus a constant shift, its running total adds each block's row sum of the weights,
  its running weighted sum adds each block's product of the weights with the values, both start at
  zero, and the result is the weighted sum over the total. A change of format is the identity on
  the extended reals; a cast to the same shape is the identity; a matrix product from zero is the sum
  over the shared axis; a sum along the rows is the sum over the row's entries.
-/
import proofs.«125116_j16844861735534_2_alg».proof.Proof.Gen.KernelIdeal.Skeleton
import proofs.«125116_j16844861735534_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.Attn

/-! ### Layout operations and reductions at an index -/

/-- A vector of length a viewed as a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an [a, b] array reads, at p, the sum over the row's entries. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin b, src (ix2 p d) := by
  refine (Ideal.multiReduction_add_single src 0x00000000#32 h hφ hacc (ix1 p)).trans ?_
  refine Finset.sum_congr rfl fun d _ => congrArg src ?_
  funext c
  apply Fin.ext
  match c with
  | ⟨0, _⟩ => rfl
  | ⟨1, _⟩ => rfl

variable [Cert.KernelIdeal.Facts]

/-! ### The two matrix products at an index -/

theorem qk_lhs_0 (j : S2048x512.Idx) (c : dot_S2048x256_S512x256_S2048x512_1_1_0_0_n_n.contr.Idx) :
    (dot_S2048x256_S512x256_S2048x512_1_1_0_0_n_n.lhsIdx j c 0).val = (j 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
theorem qk_lhs_1 (j : S2048x512.Idx) (c : dot_S2048x256_S512x256_S2048x512_1_1_0_0_n_n.contr.Idx) :
    (dot_S2048x256_S512x256_S2048x512_1_1_0_0_n_n.lhsIdx j c 1).val = (c ⟨0, by decide⟩).val :=
  dot_S2048x256_S512x256_S2048x512_1_1_0_0_n_n.lhsIdx_val_of_single rfl j c
theorem qk_rhs_0 (j : S2048x512.Idx) (c : dot_S2048x256_S512x256_S2048x512_1_1_0_0_n_n.contr.Idx) :
    (dot_S2048x256_S512x256_S2048x512_1_1_0_0_n_n.rhsIdx j c 0).val = (j 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl
theorem qk_rhs_1 (j : S2048x512.Idx) (c : dot_S2048x256_S512x256_S2048x512_1_1_0_0_n_n.contr.Idx) :
    (dot_S2048x256_S512x256_S2048x512_1_1_0_0_n_n.rhsIdx j c 1).val = (c ⟨0, by decide⟩).val :=
  dot_S2048x256_S512x256_S2048x512_1_1_0_0_n_n.rhsIdx_val_of_single rfl j c

/-- The product of a [2048, 256] by the transpose of a [512, 256] matrix, from zero, at (a, b): the
    sum over the shared axis of the products of row a of the first and row b of the second. -/
theorem matmul_qk_apply (lhs : FVec Ideal S2048x256 .bf16) (rhs : FVec Ideal S512x256 .bf16) (a : Fin 2048) (b : Fin 512) :
    matmul dot_S2048x256_S512x256_S2048x512_1_1_0_0_n_n none lhs rhs (constant (F := Ideal) S2048x512 .f32 0x00000000#32) (ix2 a b)
      = ∑ d : Fin 256, lhs (ix2 a d) * rhs (ix2 b d) := by
  simp only [matmul]
  rw [Ideal.matmul_constant_zero_apply, ← Equiv.sum_comp (contrEquiv1 dot_S2048x256_S512x256_S2048x512_1_1_0_0_n_n 256 rfl rfl).symm]
  refine Finset.sum_congr rfl fun d _ => ?_
  have hd := contrEquiv1_symm_val dot_S2048x256_S512x256_S2048x512_1_1_0_0_n_n 256 rfl rfl d
  have el : dot_S2048x256_S512x256_S2048x512_1_1_0_0_n_n.lhsIdx (ix2 a b) ((contrEquiv1 dot_S2048x256_S512x256_S2048x512_1_1_0_0_n_n 256 rfl rfl).symm d) = ix2 a d := funext fun c => Fin.ext (by
    match c with
    | ⟨0, _⟩ => exact qk_lhs_0 _ _
    | ⟨1, _⟩ => exact (qk_lhs_1 _ _).trans hd)
  have er : dot_S2048x256_S512x256_S2048x512_1_1_0_0_n_n.rhsIdx (ix2 a b) ((contrEquiv1 dot_S2048x256_S512x256_S2048x512_1_1_0_0_n_n 256 rfl rfl).symm d) = ix2 b d := funext fun c => Fin.ext (by
    match c with
    | ⟨0, _⟩ => exact qk_rhs_0 _ _
    | ⟨1, _⟩ => exact (qk_rhs_1 _ _).trans hd)
  rw [el, er]

theorem pv_lhs_0 (j : S2048x256.Idx) (c : dot_S2048x512_S512x256_S2048x256_1_0_0_1_n_n.contr.Idx) :
    (dot_S2048x512_S512x256_S2048x256_1_0_0_1_n_n.lhsIdx j c 0).val = (j 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem pv_lhs_1 (j : S2048x256.Idx) (c : dot_S2048x512_S512x256_S2048x256_1_0_0_1_n_n.contr.Idx) :
    (dot_S2048x512_S512x256_S2048x256_1_0_0_1_n_n.lhsIdx j c 1).val = (c ⟨0, by decide⟩).val :=
  dot_S2048x512_S512x256_S2048x256_1_0_0_1_n_n.lhsIdx_val_of_single rfl j c
theorem pv_rhs_0 (j : S2048x256.Idx) (c : dot_S2048x512_S512x256_S2048x256_1_0_0_1_n_n.contr.Idx) :
    (dot_S2048x512_S512x256_S2048x256_1_0_0_1_n_n.rhsIdx j c 0).val = (c ⟨0, by decide⟩).val :=
  dot_S2048x512_S512x256_S2048x256_1_0_0_1_n_n.rhsIdx_val_of_single rfl j c
theorem pv_rhs_1 (j : S2048x256.Idx) (c : dot_S2048x512_S512x256_S2048x256_1_0_0_1_n_n.contr.Idx) :
    (dot_S2048x512_S512x256_S2048x256_1_0_0_1_n_n.rhsIdx j c 1).val = (j 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The product of a [2048, 512] by a [512, 256] matrix, from zero, at (a, d): the sum over the
    shared axis of the products of row a of the first and column d of the second. -/
theorem matmul_pv_apply (lhs : FVec Ideal S2048x512 .bf16) (rhs : FVec Ideal S512x256 .bf16) (a : Fin 2048) (d : Fin 256) :
    matmul dot_S2048x512_S512x256_S2048x256_1_0_0_1_n_n none lhs rhs (constant (F := Ideal) S2048x256 .f32 0x00000000#32) (ix2 a d)
      = ∑ b : Fin 512, lhs (ix2 a b) * rhs (ix2 b d) := by
  simp only [matmul]
  rw [Ideal.matmul_constant_zero_apply, ← Equiv.sum_comp (contrEquiv1 dot_S2048x512_S512x256_S2048x256_1_0_0_1_n_n 512 rfl rfl).symm]
  refine Finset.sum_congr rfl fun b _ => ?_
  have hb := contrEquiv1_symm_val dot_S2048x512_S512x256_S2048x256_1_0_0_1_n_n 512 rfl rfl b
  have el : dot_S2048x512_S512x256_S2048x256_1_0_0_1_n_n.lhsIdx (ix2 a d) ((contrEquiv1 dot_S2048x512_S512x256_S2048x256_1_0_0_1_n_n 512 rfl rfl).symm b) = ix2 a b := funext fun c => Fin.ext (by
    match c with
    | ⟨0, _⟩ => exact pv_lhs_0 _ _
    | ⟨1, _⟩ => exact (pv_lhs_1 _ _).trans hb)
  have er : dot_S2048x512_S512x256_S2048x256_1_0_0_1_n_n.rhsIdx (ix2 a d) ((contrEquiv1 dot_S2048x512_S512x256_S2048x256_1_0_0_1_n_n 512 rfl rfl).symm b) = ix2 b d := funext fun c => Fin.ext (by
    match c with
    | ⟨0, _⟩ => exact (pv_rhs_0 _ _).trans hb
    | ⟨1, _⟩ => exact pv_rhs_1 _ _)
  rw [el, er]

/-! ### The payloads at an index -/

/-- The first kernel's normalized block: each entry over its row's clamped Euclidean norm. -/
theorem pay0_1 (x0 : Vec Ideal S1024x256 .f32) (p : Fin 1024) (q : Fin 256) :
    k0_pay1 (F := Ideal) x0 (ix2 p q)
      = Ideal.div (x0 (ix2 p q)) (max eps (Ideal.sqrt (∑ d : Fin 256, x0 (ix2 p d) * x0 (ix2 p d)))) := by
  unfold k0_pay1
  show Ideal.div (x0 (ix2 p q)) (broadcastTo S1024x256 _ broadcasts_S1024x1_S1024x256 (ix2 p q)) = _
  rw [broadcastTo_a1_ab_apply]
  show Ideal.div (x0 (ix2 p q)) (max (Ideal.ofBits .f32 0x2B8CBCCC#32)
    (Ideal.sqrt (shapeCast S1024x1 _ shapeCasts_S1024_S1024x1 (ix2 p 0)))) = _
  rw [shapeCast_a_a1_apply, rowSum_apply]
  rfl

/-- The first kernel's copy of its block (a change of format only). -/
theorem pay0_2 (x0 : Vec Ideal S1024x256 .f32) : k0_pay2 (F := Ideal) x0 = x0 := rfl

/-- The weights: the exponential of the scaled similarity minus the constant shift. -/
theorem pay1_4 (q : Vec Ideal S2048x256 .bf16) (k : Vec Ideal S512x256 .bf16) (a : Fin 2048) (b : Fin 512) :
    k1_pay4 (F := Ideal) q k (ix2 a b)
      = Ideal.exp (Ideal.div (∑ d : Fin 256, q (ix2 a d) * k (ix2 b d)) sigma - bound) := by
  unfold k1_pay4
  rw [shapeCast_self, shapeCast_self]
  show Ideal.exp (Ideal.div (matmul dot_S2048x256_S512x256_S2048x512_1_1_0_0_n_n none q k (constant (F := Ideal) S2048x512 .f32 0x00000000#32) (ix2 a b))
    (Ideal.ofBits .f32 0x3DCCCCCD#32) - Ideal.ofBits .f32 0x41280000#32) = _
  rw [matmul_qk_apply]
  rfl

/-- The running total of the weights: the carried total plus this block's row sum. -/
theorem pay1_5 (q : Vec Ideal S2048x256 .bf16) (k : Vec Ideal S512x256 .bf16) (l : Vec Ideal S2048x1 .f32) (a : Fin 2048) :
    k1_pay5 (F := Ideal) q k l (ix2 a 0) = l (ix2 a 0) + ∑ b : Fin 512, k1_pay4 (F := Ideal) q k (ix2 a b) := by
  unfold k1_pay5
  rw [shapeCast_self]
  show l (ix2 a 0) + shapeCast S2048x1 _ shapeCasts_S2048_S2048x1 (ix2 a 0) = _
  rw [shapeCast_a_a1_apply, rowSum_apply]

/-- The running weighted sum: the carried sum plus this block's weights times its values. -/
theorem pay1_6 (q : Vec Ideal S2048x256 .bf16) (k : Vec Ideal S512x256 .bf16) (v : Vec Ideal S512x256 .bf16)
    (acc : Vec Ideal S2048x256 .f32) (a : Fin 2048) (d : Fin 256) :
    k1_pay6 (F := Ideal) q k v acc (ix2 a d)
      = acc (ix2 a d) + ∑ b : Fin 512, k1_pay4 (F := Ideal) q k (ix2 a b) * v (ix2 b d) := by
  unfold k1_pay6
  rw [shapeCast_self, shapeCast_self]
  show acc (ix2 a d) + matmul dot_S2048x512_S512x256_S2048x256_1_0_0_1_n_n none (truncf .bf16 (k1_pay4 (F := Ideal) q k) bitsLt_bf16_f32) v
    (constant (F := Ideal) S2048x256 .f32 0x00000000#32) (ix2 a d) = _
  rw [matmul_pv_apply]
  rfl

/-- The final quotient: the weighted sum over the total of the weights. -/
theorem pay1_1 (acc : Vec Ideal S2048x256 .f32) (l : Vec Ideal S2048x1 .f32) (a : Fin 2048) (d : Fin 256) :
    k1_pay1 (F := Ideal) acc l (ix2 a d) = Ideal.div (acc (ix2 a d)) (l (ix2 a 0)) := by
  unfold k1_pay1
  show Ideal.div (acc (ix2 a d)) (broadcastTo S2048x256 l broadcasts_S2048x1_S2048x256 (ix2 a d)) = _
  rw [broadcastTo_a1_ab_apply]

/-- The total of the weights starts at zero. -/
theorem pay1_2 (j : S2048x1.Idx) : k1_pay2 (F := Ideal) j = 0 := by
  unfold k1_pay2
  rw [shapeCast_self]
  exact Ideal.ofBits_zero_f32

/-- The weighted sum starts at zero. -/
theorem pay1_3 (j : S2048x256.Idx) : k1_pay3 (F := Ideal) j = 0 := by
  unfold k1_pay3
  rw [shapeCast_self]
  exact Ideal.ofBits_zero_f32

end Cert.KernelIdeal.PayValue

end
-- ==== Proof.KernelIdealValue0.lean ====
/-
  The first launch (row normalization) read as whole arrays, at the ideal instance, from ANY contents V of
  the core's buffers at the moment the launch is entered.

  The grid has 8 points. Point t stages rows 1024·t … 1024·t + 1023 of the 8192 × 256 argument and writes
  back two blocks of the same rows: the rows divided by their clamped Euclidean norms, and the rows
  themselves. A row's norm reads only that row, and every row of the block is a whole row of the array, so
  what point t writes back is block t of ONE function of the argument: the row-normalized matrix
  (Cert.Attn.xn) for the first output, the argument itself for the second. The 8 blocks tile the array (row r
  is in the block of point r / 1024), so after the launch each output array IS that function.
-/
import proofs.«125116_j16844861735534_2_alg».proof.Proof.KernelIdealRegion0
import proofs.«125116_j16844861735534_2_alg».proof.Proof.Spec
import proofs.«125116_j16844861735534_2_alg».proof.Proof.KernelPayloads
import Idealize.ShloMosaic.Lib.Pipeline.Value
import Idealize.ShloMosaic.Lib.ValueIdx

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The printed index maps, decided over the 8 grid points: every window's block at point t is block (t, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block staged at point t, at x, is the argument at row 1024·t + (row of x), same column. -/
theorem input_block_at (t : Fin cfg0.N) (x : S1024x256.Idx) (k : S8192x256.Idx)
    (hk0 : (k 0).val = t.val * 1024 + (x 0).val) (hk1 : (k 1).val = (x 1).val) :
    (iblk0 V c 0 t : Vec Ideal S1024x256 .f32) x = (V c main_arg0 : S8192x256.Idx → EReal) k := by
  obtain ⟨e0, e1, -⟩ := block_index t
  unfold iblk0
  rw [View.read_apply]
  show (V c main_arg0 : S8192x256.Idx → EReal) _ = V c main_arg0 _
  refine congrArg (V c main_arg0 : S8192x256.Idx → EReal) ?_
  funext a
  apply Fin.ext
  match a with
  | ⟨0, _⟩ => show win0_0.index t (0 : Fin 2) * 1024 + 1 * (x 0).val = (k 0).val; omega
  | ⟨1, _⟩ => show win0_0.index t (1 : Fin 2) * 256 + 1 * (x 1).val = (k 1).val; omega

/-! ## The first output: the row-normalized matrix -/

/-- The row-normalized argument, as an array. -/
abbrev normRows : S8192x256.Idx → EReal :=
  fun idx => Cert.Attn.xn (fun i d => (V c main_arg0 : S8192x256.Idx → EReal) (ix2 i d)) (idx 0) (idx 1)

/-- The normalizing payload of a block, at j, when row (j 0) of the block is row r of a matrix X and j's column is q:
    the normalized matrix at (r, q). A row's norm reads the row only. -/
theorem normalized_of_row (x0 : Vec Ideal S1024x256 .f32) (X : Cert.Attn.Mat) (j : S1024x256.Idx) (r : Fin 8192) (q : Fin 256)
    (hrow : ∀ d : Fin 256, x0 (ix2 (j 0) d) = X r d) (hq : q.val = (j 1).val) :
    k0_pay1 (F := Ideal) x0 j = Cert.Attn.xn X r q := by
  obtain ⟨p, q', rfl⟩ : ∃ (p : Fin 1024) (q' : Fin 256), j = ix2 p q' := ⟨j 0, j 1, eq_ix2 j⟩
  obtain rfl : q = q' := Fin.ext hq
  rw [PayValue.pay0_1]
  unfold Cert.Attn.xn Cert.Attn.nrm
  have hrow' : ∀ d : Fin 256, x0 (ix2 p d) = X r d := hrow
  simp only [hrow']

/-- What point t writes back to the first output is block t of the row-normalized argument. -/
theorem flushed0_1_eq (t : Fin cfg0.N) :
    (dat0 (F := Ideal) V c).flushed 1 t = ((cfg0.win 1).blk t).view.read (Elt Ideal) (normRows V c) := by
  show (cfg0.win 1).cut (grid0.coords t) ((dat0 V c).after 1 t) = _
  rw [after0_1]
  unfold out0_1
  rw [View.canon_unit_zero zero_offsets]
  simp only [View.ld_unit_zero (S := S1024x256) zero_offsets]
  obtain ⟨-, -, e0, e1, -⟩ := block_index t
  funext j
  show k0_pay1 (F := Ideal) (iblk0 V c 0 t) j = normRows V c (((cfg0.win 1).blk t).view.emb j)
  refine normalized_of_row _ _ j _ _ (fun d => ?_) ?_
  · refine input_block_at V c t _ _ ?_ rfl
    show win0_1.index t (0 : Fin 2) * 1024 + 1 * (j 0).val = t.val * 1024 + (j 0).val
    omega
  · show win0_1.index t (1 : Fin 2) * 256 + 1 * (j 1).val = (j 1).val
    omega

/-! ## The second output: the rows themselves -/

/-- What point t writes back to the second output is block t of the argument. -/
theorem flushed0_2_eq (t : Fin cfg0.N) :
    (dat0 (F := Ideal) V c).flushed 2 t
      = ((cfg0.win 2).blk t).view.read (Elt Ideal) (V c main_arg0 : S8192x256.Idx → EReal) := by
  show (cfg0.win 2).cut (grid0.coords t) ((dat0 V c).after 2 t) = _
  rw [after0_2]
  unfold out0_2
  rw [View.canon_unit_zero zero_offsets]
  simp only [View.ld_unit_zero (S := S1024x256) zero_offsets]
  rw [PayValue.pay0_2]
  obtain ⟨-, -, -, -, e0, e1⟩ := block_index t
  funext j
  show (iblk0 V c 0 t : Vec Ideal S1024x256 .f32) j
    = (V c main_arg0 : S8192x256.Idx → EReal) (((cfg0.win 2).blk t).view.emb j)
  refine input_block_at V c t _ _ ?_ ?_
  · show win0_2.index t (0 : Fin 2) * 1024 + 1 * (j 0).val = t.val * 1024 + (j 0).val
    omega
  · show win0_2.index t (1 : Fin 2) * 256 + 1 * (j 1).val = (j 1).val
    omega

/-! ## The blocks tile the arrays -/

/-- An index of the first output's array is in point t's block iff each coordinate is in the block's range. -/
theorem mem_block1 (t : Fin cfg0.N) (i : S8192x256.Idx) :
    i ∈ ((cfg0.win 1).blk t).view.set ↔ ∀ a : Fin 2, win0_1.index t a * S1024x256.size a ≤ (i a).val
      ∧ (i a).val < win0_1.index t a * S1024x256.size a + S1024x256.size a := by
  show i ∈ ((View.whole main_v0_0).slice (win0_1.rect t)).set ↔ _
  rw [View.set_slice_whole, Rect.mem_set_unit]
  exact Iff.rfl

/-- The same for the second output's array. -/
theorem mem_block2 (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0_1).slice (win0_2.rect t)).set ↔ _
  rw [View.set_slice_whole, Rect.mem_set_unit]
  exact Iff.rfl

/-- Row r of the first output's array is in the block of point r / 1024, which writes back. -/
theorem covered1 (i : S8192x256.Idx) :
    ∃ t : Fin cfg0.N, (cfg0.win 1).flush t = true ∧ i ∈ ((cfg0.win 1).blk t).view.set := by
  have hN : cfg0.N = 8 := N_0
  have hi0 : (i 0).val < 8192 := (i 0).isLt
  have hi1 : (i 1).val < 256 := (i 1).isLt
  obtain ⟨t, ht⟩ : ∃ t : Fin cfg0.N, t.val = (i 0).val / 1024 := ⟨⟨(i 0).val / 1024, by omega⟩, rfl⟩
  obtain ⟨-, -, e0, e1, -⟩ := block_index t
  refine ⟨t, flush0_1 t, ?_⟩
  rw [mem_block1]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 256 ≤ (i 1).val ∧ (i 1).val < win0_1.index t (1 : Fin 2) * 256 + 256
    omega

/-- The same for the second output's array. -/
theorem covered2 (i : S8192x256.Idx) :
    ∃ t : Fin cfg0.N, (cfg0.win 2).flush t = true ∧ i ∈ ((cfg0.win 2).blk t).view.set := by
  have hN : cfg0.N = 8 := N_0
  have hi0 : (i 0).val < 8192 := (i 0).isLt
  have hi1 : (i 1).val < 256 := (i 1).isLt
  obtain ⟨t, ht⟩ : ∃ t : Fin cfg0.N, t.val = (i 0).val / 1024 := ⟨⟨(i 0).val / 1024, by omega⟩, rfl⟩
  obtain ⟨-, -, -, -, e0, e1⟩ := block_index t
  refine ⟨t, flush0_2 t, ?_⟩
  rw [mem_block2]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 256 ≤ (i 1).val ∧ (i 1).val < win0_2.index t (1 : Fin 2) * 256 + 256
    omega

/-! ## The arrays after the launch -/

/-- After the launch the first output's array is the row-normalized argument. -/
theorem final0_1 : (dat0 (F := Ideal) V c).arrAt 1 cfg0.N
    = fun idx => Cert.Attn.xn (fun i d => V c main_arg0 (ix2 i d)) (idx 0) (idx 1) :=
  (dat0 V c).arrAt_eq_of_cover 1 (normRows V c) (fun t _ => flushed0_1_eq V c t) covered1

/-- After the launch the second output's array is the argument. -/
theorem final0_2 : (dat0 (F := Ideal) V c).arrAt 2 cfg0.N = fun idx => V c main_arg0 idx :=
  (dat0 V c).arrAt_eq_of_cover 2 (V c main_arg0 : S8192x256.Idx → EReal) (fun t _ => flushed0_2_eq V c t) covered2

end Cert.KernelIdeal.HandValue

end
-- ==== Proof.KernelIdealPieces.lean ====
/-
  What the body of the second launch leaves in its two running totals and, at a last key block, in
  the output block, named by the arithmetic of the body.

  At a first key block the row totals are zero plus the block's row sums of the weights and the
  weighted sums are zero plus the block's weights times its values; at every other key block the
  carried totals take the place of the zeros; at a last key block the output block is the quotient of
  the two totals just computed. Each is the one store that covers its buffer, its loads reading
  whole buffers (at a first key block, the zeros stored just before).
-/
import proofs.«125116_j16844861735534_2_alg».proof.Proof.KernelIdealRegion1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access. -/
theorem hz2 : (![0, 0] : Fin 2 → Nat) = fun _ => 0 := funext fun a => by fin_cases a <;> rfl

/-! ### A first key block: both running totals start from zero -/

/-- The row totals after a first key block: zero plus the block's row sums of the weights. -/
theorem soutA_0_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) :
    soutA_0 c i arg2 harg2 arg3 harg3 arg4 harg4 arg5 harg5 arg6 harg6 arg7 harg7 hc0 hc1 x0 x1 x2 = k1_pay5 x0 x1 (k1_pay2 (F := F)) := by
  unfold soutA_0
  rw [View.read_writes_eq_canon _ _ _ (scoverA_0 c i arg2 harg2 arg3 harg3 arg4 harg4 arg5 harg5 arg6 harg6 arg7 harg7 hc0 hc1 x0 x1 x2)]
  unfold kernelRun1_A
  dsimp only
  sl_unfold_words
  rw [View.canon_cons_unit_zero (S := S2048x1) hz2, View.readCov_unit_zero (S := S2048x1) _ hz2]
  simp only [View.readAt_eq_ld, harg2.read_unread, harg3.read_unread, harg4.read_unread, View.ld_unit_zero (S := S2048x256) hz2, View.ld_unit_zero (S := S512x256) hz2]

/-- The weighted sums after a first key block: zero plus the block's weights times its values. -/
theorem soutA_1_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : cond1_0 i) (hc1 : ¬cond1_1 i)
    (x0 : Vec F S2048x256 .bf16) (x1 : Vec F S512x256 .bf16) (x2 : Vec F S512x256 .bf16) :
    soutA_1 c i arg2 harg2 arg3 harg3 arg4 harg4 arg5 harg5 arg6 harg6 arg7 harg7 hc0 hc1 x0 x1 x2 = k1_pay6 x0 x1 x2 (k1_pay3 (F := F)) := by
  unfold soutA_1
  rw [View.read_writes_eq_canon _ _ _ (scoverA_1 c i arg2 harg2 arg3 harg3 arg4 harg4 arg5 harg5 arg6 harg6 arg7 harg7 hc0 hc1 x0 x1 x2)]
  unfold kernelRun1_A
  dsimp only
  sl_unfold_words
  rw [View.canon_cons_unit_zero (S := S2048x256) hz2, View.readCov_unit_zero (S := S2048x256) _ hz2]
  simp only [View.readAt_eq_ld, harg2.read_unread, harg3.read_unread, harg4.read_unread, View.ld_unit_zero (S := S2048x256) hz2, View.ld_unit_zero (S := S512x256) hz2]

/-! ### A middle key block: both running totals carried on -/

/-- The row totals after a middle key block: the carried totals plus the block's row sums. -/
theorem soutB_0_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) :
    soutB_0 c i arg2 harg2 arg3 harg3 arg4 harg4 arg5 harg5 arg6 harg6 arg7 harg7 hc0 hc1 x0 x1 x2 xs0 xs1 = k1_pay5 x0 x1 xs0 := by
  unfold soutB_0
  rw [View.read_writes_eq_canon _ _ _ (scoverB_0 c i arg2 harg2 arg3 harg3 arg4 harg4 arg5 harg5 arg6 harg6 arg7 harg7 hc0 hc1 x0 x1 x2 xs0 xs1)]
  unfold kernelRun1_B
  dsimp only
  rw [View.canon_unit_zero (S := S2048x1) hz2]
  simp only [View.readAt_eq_ld, harg2.read_unread, harg3.read_unread, harg4.read_unread, harg6.read_unread, harg7.read_unread, View.ld_unit_zero (S := S2048x256) hz2, View.ld_unit_zero (S := S512x256) hz2, View.ld_unit_zero (S := S2048x1) hz2]

/-- The weighted sums after a middle key block: the carried sums plus the block's contribution. -/
theorem soutB_1_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : ¬cond1_1 i)
    (x0 : Vec F S2048x256 .bf16) (x1 : Vec F S512x256 .bf16) (x2 : Vec F S512x256 .bf16) (xs0 : Vec F S2048x1 .f32) (xs1 : Vec F S2048x256 .f32) :
    soutB_1 c i arg2 harg2 arg3 harg3 arg4 harg4 arg5 harg5 arg6 harg6 arg7 harg7 hc0 hc1 x0 x1 x2 xs0 xs1 = k1_pay6 x0 x1 x2 xs1 := by
  unfold soutB_1
  rw [View.read_writes_eq_canon _ _ _ (scoverB_1 c i arg2 harg2 arg3 harg3 arg4 harg4 arg5 harg5 arg6 harg6 arg7 harg7 hc0 hc1 x0 x1 x2 xs0 xs1)]
  unfold kernelRun1_B
  dsimp only
  rw [View.canon_unit_zero (S := S2048x256) hz2]
  simp only [View.readAt_eq_ld, harg2.read_unread, harg3.read_unread, harg4.read_unread, harg6.read_unread, harg7.read_unread, View.ld_unit_zero (S := S2048x256) hz2, View.ld_unit_zero (S := S512x256) hz2, View.ld_unit_zero (S := S2048x1) hz2]

/-! ### A last key block: the totals carried on, and the quotient stored -/

/-- The row totals after a last key block. -/
theorem soutC_0_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) :
    soutC_0 c i arg2 harg2 arg3 harg3 arg4 harg4 arg5 harg5 arg6 harg6 arg7 harg7 hc0 hc1 x0 x1 x2 xs0 xs1 = k1_pay5 x0 x1 xs0 := by
  unfold soutC_0
  rw [View.read_writes_eq_canon _ _ _ (scoverC_0 c i arg2 harg2 arg3 harg3 arg4 harg4 arg5 harg5 arg6 harg6 arg7 harg7 hc0 hc1 x0 x1 x2 xs0 xs1)]
  unfold kernelRun1_C
  dsimp only
  sl_unfold_words
  rw [View.canon_unit_zero (S := S2048x1) hz2]
  simp only [View.readAt_eq_ld, harg2.read_unread, harg3.read_unread, harg4.read_unread, harg6.read_unread, harg7.read_unread, View.ld_unit_zero (S := S2048x256) hz2, View.ld_unit_zero (S := S512x256) hz2, View.ld_unit_zero (S := S2048x1) hz2]

/-- The weighted sums after a last key block. -/
theorem soutC_1_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) :
    soutC_1 c i arg2 harg2 arg3 harg3 arg4 harg4 arg5 harg5 arg6 harg6 arg7 harg7 hc0 hc1 x0 x1 x2 xs0 xs1 = k1_pay6 x0 x1 x2 xs1 := by
  unfold soutC_1
  rw [View.read_writes_eq_canon _ _ _ (scoverC_1 c i arg2 harg2 arg3 harg3 arg4 harg4 arg5 harg5 arg6 harg6 arg7 harg7 hc0 hc1 x0 x1 x2 xs0 xs1)]
  unfold kernelRun1_C
  dsimp only
  sl_unfold_words
  rw [View.canon_unit_zero (S := S2048x256) hz2]
  simp only [View.readAt_eq_ld, harg2.read_unread, harg3.read_unread, harg4.read_unread, harg6.read_unread, harg7.read_unread, View.ld_unit_zero (S := S2048x256) hz2, View.ld_unit_zero (S := S512x256) hz2, View.ld_unit_zero (S := S2048x1) hz2]

/-- The output block after a last key block: the weighted sums over the row totals. -/
theorem outC_3_eq (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x256 .f32) (harg7 : arg7.IsWhole) (hc0 : ¬cond1_0 i) (hc1 : cond1_1 i)
    (x0 : Vec F S2048x256 .bf16) (x1 : Vec F S512x256 .bf16) (x2 : Vec F S512x256 .bf16) (xs0 : Vec F S2048x1 .f32) (xs1 : Vec F S2048x256 .f32) :
    outC_3 c i arg2 harg2 arg3 harg3 arg4 harg4 arg5 harg5 arg6 harg6 arg7 harg7 hc0 hc1 x0 x1 x2 xs0 xs1 = k1_pay1 (k1_pay6 x0 x1 x2 xs1) (k1_pay5 x0 x1 xs0) := by
  unfold outC_3
  rw [View.read_writes_eq_canon _ _ _ (coverC_3 c i arg2 harg2 arg3 harg3 arg4 harg4 arg5 harg5 arg6 harg6 arg7 harg7 hc0 hc1 x0 x1 x2 xs0 xs1)]
  unfold kernelRun1_C
  dsimp only
  sl_unfold_words
  rw [View.canon_unit_zero (S := S2048x256) hz2, View.readCov_unit_zero (S := S2048x256) _ hz2,
    View.readCov_unit_zero (S := S2048x1) _ hz2]
  simp only [View.readAt_eq_ld, harg2.read_unread, harg3.read_unread, harg4.read_unread, harg6.read_unread, harg7.read_unread, View.ld_unit_zero (S := S2048x256) hz2, View.ld_unit_zero (S := S512x256) hz2, View.ld_unit_zero (S := S2048x1) hz2]

end Cert.KernelIdeal.Hand

end
-- ==== Proof.KernelIdealBlocks1.lean ====
/-
  The second launch's blocks as rows of the arrays, at ANY contents V of the core's buffers at the moment
  the launch is entered, and for any float operations.

  The grid is 4 × 16: point t is query block t / 16 and key block t % 16. The query block staged at t is rows
  2048·(t/16) … 2048·(t/16) + 2047 of the first launch's first output; the key block and the value block are
  rows 512·(t%16) … 512·(t%16) + 511 of the first launch's first and second outputs. The output block of query
  block q is rows 2048·q … 2048·q + 2047 of the result array and is written back only at the last key block
  (t % 16 = 15). The four output blocks tile the result array (row r is in the block written back at point
  16·(r / 2048) + 15), so if what each of those points writes back is its block of ONE function G of the
  array index, the result array after the launch is G.
-/
import proofs.«125116_j16844861735534_2_alg».proof.Proof.KernelIdealRegion1
import Idealize.ShloMosaic.Lib.Pipeline.Value
import Idealize.ShloMosaic.Lib.ValueIdx

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable {F : FTy → Type} [FloatOps F]
variable (V : (c : Dev nD) → (b : Ref sig .tc) → Buf (Elt F) ((c : Thread nD τ).loc b)) (c : Dev nD)

/-- A row number as a row of an 8192-row array (every row number met here is below 8192). -/
def row (n : ℕ) : Fin 8192 := ⟨n % 8192, Nat.mod_lt _ (by norm_num)⟩

theorem row_val (j : Fin 8192) : row j.val = j := Fin.ext (Nat.mod_eq_of_lt j.isLt)

theorem row_of_lt {n : ℕ} (h : n < 8192) : (row n).val = n := Nat.mod_eq_of_lt h

/-- The printed index maps, decided over the 64 grid points: the query window and the output window are at block
    (t / 16, 0), the key window and the value window at block (t % 16, 0). -/
theorem block_index1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

/-! ## The input blocks -/

/-- The query block at point t, at (a, d), is the first array at row 2048·(t/16) + a, column d. -/
theorem q_at (t : Fin cfg1.N) (a : Fin 2048) (d : Fin 256) :
    (iblk1 V c 0 t : Vec F S2048x256 .bf16) (ix2 a d) = V c main_v0_0 (ix2 (row (2048 * (t.val / 16) + a.val)) d) := by
  have hN : cfg1.N = 64 := N_1
  have ht : t.val < cfg1.N := t.isLt
  obtain ⟨e0, e1, -⟩ := block_index1 t
  unfold iblk1
  rw [View.read_apply]
  show (V c main_v0_0 : S8192x256.Idx → Elt F .bf16) _ = V c main_v0_0 _
  refine congrArg (V c main_v0_0 : S8192x256.Idx → Elt F .bf16) ?_
  funext ax
  apply Fin.ext
  match ax with
  | ⟨0, _⟩ =>
    show win1_0.index t (0 : Fin 2) * 2048 + 1 * a.val = (row (2048 * (t.val / 16) + a.val)).val
    rw [row_of_lt (by omega)]; omega
  | ⟨1, _⟩ => show win1_0.index t (1 : Fin 2) * 256 + 1 * d.val = d.val; omega

/-- The key block at point t, at (b, d), is the first array at row 512·(t%16) + b, column d. -/
theorem k_at (t : Fin cfg1.N) (b : Fin 512) (d : Fin 256) :
    (iblk1 V c 1 t : Vec F S512x256 .bf16) (ix2 b d) = V c main_v0_0 (ix2 (row (512 * (t.val % 16) + b.val)) d) := by
  obtain ⟨-, -, e0, e1, -⟩ := block_index1 t
  unfold iblk1
  rw [View.read_apply]
  show (V c main_v0_0 : S8192x256.Idx → Elt F .bf16) _ = V c main_v0_0 _
  refine congrArg (V c main_v0_0 : S8192x256.Idx → Elt F .bf16) ?_
  funext ax
  apply Fin.ext
  match ax with
  | ⟨0, _⟩ =>
    show win1_1.index t (0 : Fin 2) * 512 + 1 * b.val = (row (512 * (t.val % 16) + b.val)).val
    rw [row_of_lt (by omega)]; omega
  | ⟨1, _⟩ => show win1_1.index t (1 : Fin 2) * 256 + 1 * d.val = d.val; omega

/-- The value block at point t, at (b, d), is the second array at row 512·(t%16) + b, column d. -/
theorem v_at (t : Fin cfg1.N) (b : Fin 512) (d : Fin 256) :
    (iblk1 V c 2 t : Vec F S512x256 .bf16) (ix2 b d) = V c main_v0_1 (ix2 (row (512 * (t.val % 16) + b.val)) d) := by
  obtain ⟨-, -, -, -, e0, e1, -⟩ := block_index1 t
  unfold iblk1
  rw [View.read_apply]
  show (V c main_v0_1 : S8192x256.Idx → Elt F .bf16) _ = V c main_v0_1 _
  refine congrArg (V c main_v0_1 : S8192x256.Idx → Elt F .bf16) ?_
  funext ax
  apply Fin.ext
  match ax with
  | ⟨0, _⟩ =>
    show win1_2.index t (0 : Fin 2) * 512 + 1 * b.val = (row (512 * (t.val % 16) + b.val)).val
    rw [row_of_lt (by omega)]; omega
  | ⟨1, _⟩ => show win1_2.index t (1 : Fin 2) * 256 + 1 * d.val = d.val; omega

/-! ## The output blocks -/

/-- A block of 2048 rows that is rows 2048·q … of a function G of the array index, read at any block index j
    whose place in the array is k. -/
theorem out_block_at (O : Vec F S2048x256 .f32) (G : S8192x256.Idx → Elt F .f32) (q : ℕ) (hq : q < 4)
    (hO : ∀ (a : Fin 2048) (d : Fin 256), O (ix2 a d) = G (ix2 (row (2048 * q + a.val)) d))
    (j : S2048x256.Idx) (k : S8192x256.Idx) (hk0 : (k 0).val = q * 2048 + (j 0).val) (hk1 : (k 1).val = (j 1).val) :
    O j = G k := by
  obtain ⟨a, d, rfl⟩ : ∃ (a : Fin 2048) (d : Fin 256), j = ix2 a d := ⟨j 0, j 1, eq_ix2 j⟩
  rw [hO a d]
  refine congrArg G ?_
  funext ax
  apply Fin.ext
  match ax with
  | ⟨0, _⟩ =>
    show (row (2048 * q + a.val)).val = (k 0).val
    rw [row_of_lt (by omega), hk0]
    show 2048 * q + a.val = q * 2048 + a.val
    omega
  | ⟨1, _⟩ => show d.val = (k 1).val; rw [hk1]

/-- What a last-key-block point writes back is its block of G, when the output block's buffer there holds rows
    2048·(t/16) … of G. -/
theorem flushed1_3_of (G : S8192x256.Idx → Elt F .f32)
    (hG : ∀ t : Fin cfg1.N, t.val % 16 = 15 → ∀ (a : Fin 2048) (d : Fin 256),
      (outsAt1 V c t.val t.isLt).1 (ix2 a d) = G (ix2 (row (2048 * (t.val / 16) + a.val)) d))
    (t : Fin cfg1.N) (ht : t.val % 16 = 15) :
    (dat1 V c).flushed 3 t = ((cfg1.win 3).blk t).view.read (Elt F) G := by
  have hN : cfg1.N = 64 := N_1
  have hlt : t.val < cfg1.N := t.isLt
  show (cfg1.win 3).cut (grid1.coords t) ((dat1 V c).after 3 t) = _
  rw [after1_3]
  obtain ⟨-, -, -, -, -, -, e0, e1⟩ := block_index1 t
  funext j
  show (outsAt1 V c t.val t.isLt).1 j = G (((cfg1.win 3).blk t).view.emb j)
  refine out_block_at _ G (t.val / 16) (by omega) (hG t ht) j _ ?_ ?_
  · show win1_3.index t (0 : Fin 2) * 2048 + 1 * (j 0).val = t.val / 16 * 2048 + (j 0).val
    omega
  · show win1_3.index t (1 : Fin 2) * 256 + 1 * (j 1).val = (j 1).val
    omega

/-- An index of the result array is in point t's block iff each coordinate is in the block's range. -/
theorem mem_out_block (t : Fin cfg1.N) (i : S8192x256.Idx) :
    i ∈ ((cfg1.win 3).blk t).view.set ↔ ∀ a : Fin 2, win1_3.index t a * S2048x256.size a ≤ (i a).val
      ∧ (i a).val < win1_3.index t a * S2048x256.size a + S2048x256.size a := by
  show i ∈ ((View.whole main_v1).slice (win1_3.rect t)).set ↔ _
  rw [View.set_slice_whole, Rect.mem_set_unit]
  exact Iff.rfl

/-- Row r of the result array is in the block written back at point 16·(r / 2048) + 15. -/
theorem out_covered (i : S8192x256.Idx) :
    ∃ t : Fin cfg1.N, (cfg1.win 3).flush t = true ∧ i ∈ ((cfg1.win 3).blk t).view.set := by
  have hN : cfg1.N = 64 := N_1
  have hi0 : (i 0).val < 8192 := (i 0).isLt
  have hi1 : (i 1).val < 256 := (i 1).isLt
  obtain ⟨t, ht⟩ : ∃ t : Fin cfg1.N, t.val = 16 * ((i 0).val / 2048) + 15 :=
    ⟨⟨16 * ((i 0).val / 2048) + 15, by omega⟩, rfl⟩
  obtain ⟨-, -, -, -, -, -, e0, e1⟩ := block_index1 t
  refine ⟨t, (flush1_3 t).mpr (by omega), ?_⟩
  rw [mem_out_block]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 256 ≤ (i 1).val ∧ (i 1).val < win1_3.index t (1 : Fin 2) * 256 + 256
    omega

/-- The result array after the launch is G, when at every last-key-block point the output block's buffer holds
    rows 2048·(t/16) … of G. -/
theorem final1_3_of (G : S8192x256.Idx → Elt F .f32)
    (hG : ∀ t : Fin cfg1.N, t.val % 16 = 15 → ∀ (a : Fin 2048) (d : Fin 256),
      (outsAt1 V c t.val t.isLt).1 (ix2 a d) = G (ix2 (row (2048 * (t.val / 16) + a.val)) d)) :
    (dat1 V c).arrAt 3 cfg1.N = G :=
  (dat1 V c).arrAt_eq_of_cover 3 G (fun t hf => flushed1_3_of V c G hG t ((flush1_3 t).mp hf)) out_covered

end Cert.KernelIdeal.HandValue

end
-- ==== Proof.LibBlockSums.lean ====
/-
  A sum over 8192 consecutive indices, cut into 16 blocks of 512: summing each block and then the
  blocks is the sum over all indices (the index 512 · kb + b runs over 0 … 8191 exactly once as kb
  runs over 0 … 15 and b over 0 … 511).
-/
import Mathlib.Data.EReal.Basic
import Mathlib.Algebra.BigOperators.Fin
import Mathlib.Logic.Equiv.Fin.Basic

namespace Cert.Attn

/-- A sum over m · n consecutive indices is the sum over m blocks of the sums over each block's n
    indices. -/
theorem sum_blocks_gen {M : Type*} [AddCommMonoid M] (m n : ℕ) (g : ℕ → M) :
    ∑ kb ∈ Finset.range m, ∑ b : Fin n, g (n * kb + b.val) = ∑ j : Fin (m * n), g j.val := by
  rw [← Fin.sum_univ_eq_sum_range (fun kb => ∑ b : Fin n, g (n * kb + b.val)) m,
    ← Equiv.sum_comp finProdFinEquiv, Fintype.sum_prod_type]
  refine Finset.sum_congr rfl fun a _ => Finset.sum_congr rfl fun b _ => ?_
  rw [finProdFinEquiv_apply_val, add_comm]

/-- 8192 indices in 16 blocks of 512. -/
theorem sum_blocks (g : ℕ → EReal) :
    ∑ kb ∈ Finset.range 16, ∑ b : Fin 512, g (512 * kb + b.val) = ∑ j : Fin 8192, g j.val :=
  sum_blocks_gen 16 512 g

end Cert.Attn
-- ==== Proof.KernelIdealValue1.lean ====
/-
  The second launch's result, in closed form, at the ideal instance and at ANY contents `V` of the core's
  buffers at its entry. Write N for the array its query and key windows read and X for the array its value
  window reads, as matrices of 8192 rows. The weight of rows i and j is
      wgt N i j = exp ((∑ d, N i d * N j d) / sigma - bound).
  After grid position n — query block n / 16, key block n % 16 — the row totals hold, in row a, the weights of
  row 2048·(n/16) + a against the rows of key blocks 0 … n % 16, summed; the weighted sums hold the same sums with
  each weight multiplied by the value row. (The first key block starts both from zero; every later one adds onto
  what the position before left.) At the last key block the output block is the quotient of the two, and sixteen
  blocks of 512 rows are all 8192 rows: the result array is
      (∑ j, wgt N i j * X j d) / (∑ j, wgt N i j).
-/
import proofs.«125116_j16844861735534_2_alg».proof.Proof.KernelIdealPieces
import proofs.«125116_j16844861735534_2_alg».proof.Proof.KernelIdealBlocks1
import proofs.«125116_j16844861735534_2_alg».proof.Proof.KernelPayloads
import proofs.«125116_j16844861735534_2_alg».proof.Proof.LibBlockSums
import proofs.«125116_j16844861735534_2_alg».proof.Proof.Spec

set_option maxRecDepth 16384

noncomputable section

namespace Cert.KernelIdeal.HandValue

open Idealize.ShloMosaic Idealize.ShloMosaic.TcCoe Idealize.SL.Sem
open Idealize.ShloMosaic.Pipeline (Dat)
open Cert.KernelIdeal Cert.KernelIdeal.Gen Cert.KernelIdeal.Hand Cert.KernelIdeal.PayValue
open Idealize.ShloMosaic.ValueIdx Cert.Attn

variable (V : (c : Dev nD) → (b : Ref sig .tc) → Buf (Elt Ideal) ((c : Thread nD τ).loc b)) (c : Dev nD)

/-- The array the query and key windows read, as a matrix. -/
abbrev Nm : Mat := fun i d => V c main_v0_0 (ix2 i d)
/-- The array the value window reads, as a matrix. -/
abbrev Xm : Mat := fun i d => V c main_v0_1 (ix2 i d)

/-- The weight of rows `i` and `j` (row numbers taken modulo 8192, so that the function is total). -/
def wgt (N : Mat) (i j : ℕ) : EReal :=
  Ideal.exp (Ideal.div (∑ d : Fin 256, N (row i) d * N (row j) d) sigma - bound)

/-- The weights the body computes at point `t` are the weights of the point's query rows and key rows. -/
theorem weight_at (t : Fin cfg1.N) (a : Fin 2048) (b : Fin 512) :
    k1_pay4 (F := Ideal) (iblk1 V c 0 t) (iblk1 V c 1 t) (ix2 a b)
      = wgt (Nm V c) (2048 * (t.val / 16) + a.val) (512 * (t.val % 16) + b.val) := by
  rw [pay1_4]
  unfold wgt
  refine congrArg (fun s => Ideal.exp (Ideal.div s sigma - bound)) (Finset.sum_congr rfl fun d _ => ?_)
  rw [q_at V c t a d, k_at V c t b d]

/-- One key block's contribution to a row total. -/
theorem rowsum_at (t : Fin cfg1.N) (a : Fin 2048) :
    ∑ b : Fin 512, k1_pay4 (F := Ideal) (iblk1 V c 0 t) (iblk1 V c 1 t) (ix2 a b)
      = ∑ b : Fin 512, wgt (Nm V c) (2048 * (t.val / 16) + a.val) (512 * (t.val % 16) + b.val) :=
  Finset.sum_congr rfl fun b _ => weight_at V c t a b

/-- One key block's contribution to a weighted sum. -/
theorem wsum_at (t : Fin cfg1.N) (a : Fin 2048) (d : Fin 256) :
    ∑ b : Fin 512, k1_pay4 (F := Ideal) (iblk1 V c 0 t) (iblk1 V c 1 t) (ix2 a b) * (iblk1 V c 2 t : Vec Ideal S512x256 .bf16) (ix2 b d)
      = ∑ b : Fin 512, wgt (Nm V c) (2048 * (t.val / 16) + a.val) (512 * (t.val % 16) + b.val) * Xm V c (row (512 * (t.val % 16) + b.val)) d :=
  Finset.sum_congr rfl fun b _ => by rw [weight_at V c t a b, v_at V c t b d]

/-- THE TOTALS after grid position `n`: the sums over key blocks 0 … n % 16 of the query block n / 16. -/
theorem totals_at (n : ℕ) (hn : n < cfg1.N) :
    (∀ a : Fin 2048, (outsAt1 V c n hn).2.1 (ix2 a 0)
        = ∑ kb ∈ Finset.range (n % 16 + 1), ∑ b : Fin 512, wgt (Nm V c) (2048 * (n / 16) + a.val) (512 * kb + b.val))
    ∧ (∀ (a : Fin 2048) (d : Fin 256), (outsAt1 V c n hn).2.2 (ix2 a d)
        = ∑ kb ∈ Finset.range (n % 16 + 1), ∑ b : Fin 512, wgt (Nm V c) (2048 * (n / 16) + a.val) (512 * kb + b.val) * Xm V c (row (512 * kb + b.val)) d) := by
  induction n using Nat.strong_induction_on with
  | _ n ih =>
    have hN : n < 64 := lt_of_lt_of_eq hn (show cfg1.N = 64 from N_1)
    by_cases h0 : n % 16 = 0
    · have h1 : ¬ n % 16 = 15 := by omega
      have hA := outsAt1_A V c ⟨n, hn⟩ h0 h1
      rw [show outsAt1 V c (⟨n, hn⟩ : Fin cfg1.N).val (⟨n, hn⟩ : Fin cfg1.N).isLt = outsAt1 V c n hn from rfl] at hA
      rw [hA]
      dsimp only
      rw [soutA_0_eq, soutA_1_eq, h0]
      refine ⟨fun a => ?_, fun a d => ?_⟩
      · rw [pay1_5, pay1_2, zero_add, Finset.sum_range_one, rowsum_at V c ⟨n, hn⟩ a]
        simp only [h0, Nat.mul_zero]
      · rw [pay1_6, pay1_3, zero_add, Finset.sum_range_one, wsum_at V c ⟨n, hn⟩ a d]
        simp only [h0, Nat.mul_zero]
    · have hpos : n - 1 < n := by omega
      have hq : n / 16 = (n - 1) / 16 := by omega
      have hk : n % 16 = (n - 1) % 16 + 1 := by omega
      have hprev : n - 1 < cfg1.N := Nat.lt_of_le_of_lt (Nat.sub_le _ _) hn
      obtain ⟨ihl, iha⟩ := ih (n - 1) hpos hprev
      have key : (outsAt1 V c n hn).2.1 = k1_pay5 (F := Ideal) (iblk1 V c 0 ⟨n, hn⟩) (iblk1 V c 1 ⟨n, hn⟩) (outsAt1 V c (n - 1) hprev).2.1
          ∧ (outsAt1 V c n hn).2.2 = k1_pay6 (F := Ideal) (iblk1 V c 0 ⟨n, hn⟩) (iblk1 V c 1 ⟨n, hn⟩) (iblk1 V c 2 ⟨n, hn⟩) (outsAt1 V c (n - 1) hprev).2.2 := by
        by_cases h1 : n % 16 = 15
        · have hC := outsAt1_C V c ⟨n, hn⟩ h0 h1
          rw [show outsAt1 V c (⟨n, hn⟩ : Fin cfg1.N).val (⟨n, hn⟩ : Fin cfg1.N).isLt = outsAt1 V c n hn from rfl] at hC
          rw [hC]; dsimp only
          rw [soutC_0_eq, soutC_1_eq]
          exact ⟨rfl, rfl⟩
        · have hB := outsAt1_B V c ⟨n, hn⟩ h0 h1
          rw [show outsAt1 V c (⟨n, hn⟩ : Fin cfg1.N).val (⟨n, hn⟩ : Fin cfg1.N).isLt = outsAt1 V c n hn from rfl] at hB
          rw [hB]; dsimp only
          rw [soutB_0_eq, soutB_1_eq]
          exact ⟨rfl, rfl⟩
      refine ⟨fun a => ?_, fun a d => ?_⟩
      · rw [key.1, pay1_5, ihl a, rowsum_at V c ⟨n, hn⟩ a, ← hq]
        conv_rhs => rw [Finset.sum_range_succ]
        rw [hk]
      · rw [key.2, pay1_6, iha a d, wsum_at V c ⟨n, hn⟩ a d, ← hq]
        conv_rhs => rw [Finset.sum_range_succ]
        rw [hk]

/-- The weight does not see the row number beyond its residue. -/
theorem wgt_row (N : Mat) (i j : ℕ) : wgt N (row i).val j = wgt N i j := by
  unfold wgt; rw [row_val]

/-- The result array, entry by entry: weighted sum over weight total, over all 8192 rows. -/
def attnOf (N X : Mat) : S8192x256.Idx → EReal := fun idx =>
  Ideal.div (∑ j : Fin 8192, wgt N (idx 0).val j.val * X j (idx 1)) (∑ j : Fin 8192, wgt N (idx 0).val j.val)

/-- What the output block's buffer holds after a last key block: the quotient of the finished totals. -/
theorem out_at (t : Fin cfg1.N) (h15 : t.val % 16 = 15) (a : Fin 2048) (d : Fin 256) :
    (outsAt1 V c t.val t.isLt).1 (ix2 a d) = attnOf (Nm V c) (Xm V c) (ix2 (row (2048 * (t.val / 16) + a.val)) d) := by
  have h0 : ¬ t.val % 16 = 0 := by omega
  obtain ⟨hl, ha⟩ := totals_at V c t.val t.isLt
  have hC := outsAt1_C V c t h0 h15
  have e1 : (outsAt1 V c t.val t.isLt).1 = k1_pay1 (F := Ideal) (outsAt1 V c t.val t.isLt).2.2 (outsAt1 V c t.val t.isLt).2.1 := by
    rw [hC]; dsimp only
    rw [outC_3_eq, soutC_0_eq, soutC_1_eq]
  rw [e1, pay1_1, hl a, ha a d, h15]
  unfold attnOf
  have hi : ((ix2 (row (2048 * (t.val / 16) + a.val)) d : S8192x256.Idx) 0).val = (row (2048 * (t.val / 16) + a.val)).val := rfl
  have hd : ((ix2 (row (2048 * (t.val / 16) + a.val)) d : S8192x256.Idx) 1) = d := rfl
  rw [hi, hd]
  simp only [wgt_row]
  rw [sum_blocks (fun j => wgt (Nm V c) (2048 * (t.val / 16) + a.val) j * Xm V c (row j) d),
    sum_blocks (fun j => wgt (Nm V c) (2048 * (t.val / 16) + a.val) j)]
  simp only [row_val]

/-- THE RESULT ARRAY after the second launch. -/
theorem final1_3 : (dat1 V c).arrAt 3 cfg1.N = attnOf (Nm V c) (Xm V c) :=
  final1_3_of V c (attnOf (Nm V c) (Xm V c)) (fun t h15 a d => out_at V c t h15 a d)

end Cert.KernelIdeal.HandValue

end
-- ==== Proof.KernelIdealValue.lean ====
/-
  The program's result as one function of its argument, at the ideal instance: the first launch leaves the
  row-normalized matrix and the matrix itself; the second launch, reading those, leaves attention with the constant
  shift under the exponential — `Cert.Attn.attnShift` of the argument, entry by entry.
-/
import proofs.«125116_j16844861735534_2_alg».proof.Proof.KernelIdealRun
import proofs.«125116_j16844861735534_2_alg».proof.Proof.KernelIdealValue0
import proofs.«125116_j16844861735534_2_alg».proof.Proof.KernelIdealValue1

set_option maxRecDepth 16384

noncomputable section

namespace Cert.KernelIdeal.HandValue

open Idealize.ShloMosaic Idealize.ShloMosaic.TcCoe Idealize.SL.Sem
open Idealize.ShloMosaic.Pipeline (Dat)
open Cert.KernelIdeal Cert.KernelIdeal.Gen Cert.KernelIdeal.Hand
open Idealize.ShloMosaic.ValueIdx Cert.Attn

variable (m : (ℓ : Loc nD τ sig) → Buf (Elt Ideal) ℓ) (c : Dev nD)

/-- The argument as a matrix. -/
abbrev argMat : Mat := fun i d => m ((c : Thread nD τ).loc main_arg0) (ix2 i d)

/-- What the second launch's query and key windows read is the row-normalized argument. -/
theorem normalized_in : Nm (Vb m) c = xn (argMat m c) := by
  funext i d
  show Vb m c main_v0_0 (ix2 i d) = _
  rw [show Vb m c main_v0_0 = (dat0 (Va m) c).arrAt 1 cfg0.N from (hF0 m c 1).symm, final0_1 (Va m) c]
  rfl

/-- What its value window reads is the argument. -/
theorem values_in : Xm (Vb m) c = argMat m c := by
  funext i d
  show Vb m c main_v0_1 (ix2 i d) = _
  rw [show Vb m c main_v0_1 = (dat0 (Va m) c).arrAt 2 cfg0.N from (hF0 m c 2).symm, final0_2 (Va m) c]

/-- Weighted sum over weight total, with the weights of the normalized rows, is attention with the constant shift. -/
theorem attnOf_eq (x : Mat) (i : Fin 8192) (d : Fin 256) : attnOf (xn x) x (ix2 i d) = attnShift x i d := by
  unfold attnOf attnShift wgt W
  have hi : ((ix2 i d : S8192x256.Idx) 0).val = i.val := rfl
  have hd : ((ix2 i d : S8192x256.Idx) 1) = d := rfl
  rw [hi, hd]
  simp only [row_val]

/-- THE KERNEL'S RESULT: attention with the constant shift, of the argument. -/
theorem kernel_eq : (dat1 (Vb m) c).arrAt 3 cfg1.N = fun idx => attnShift (argMat m c) (idx 0) (idx 1) := by
  rw [final1_3 (Vb m) c, normalized_in m c, values_in m c]
  funext idx
  obtain ⟨i, d, rfl⟩ : ∃ (i : Fin 8192) (d : Fin 256), idx = ix2 i d := ⟨idx 0, idx 1, eq_ix2 idx⟩
  exact attnOf_eq (argMat m c) i d

end Cert.KernelIdeal.HandValue

end
-- ==== Proof.RefValue.lean ====
/-
  The reference program's result, read index by index, is softmax attention with the row maximum
  as the shift (Cert.Attn.attnMax) of the argument matrix.

  The reference computes, for an 8192 × 256 matrix x over the extended reals:
    the row norms  sqrt (0 + ∑ d, x i d * x i d), clamped below at eps;
    the normalized matrix  xn i d = x i d / nrm i;
    the similarities  W i j = (∑ d, xn i d * xn j d) / sigma  (a product with the transposed matrix);
    the row maxima  max ⊥ (fold max ⊥ (W i ·));
    the weights  exp (W i j - rowMax i) / (0 + ∑ k, exp (W i k - rowMax i));
    the result  ∑ j, weight i j * x j d.
  Each stage is read at an index built from literal coordinates, one small lemma per stage.
-/
import proofs.«125116_j16844861735534_2_alg».proof.Proof.Gen.ReferenceIdeal.Read
import proofs.«125116_j16844861735534_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.TcCoe Idealize.SL.Sem Cert.ReferenceIdeal Cert.ReferenceIdeal.Read

/-- The argument array as a matrix indexed by row and column. -/
abbrev mat (x : (⟨S8192x256, .f32⟩ : BufTy).Contents (Elt Ideal)) : Cert.Attn.Mat := fun i d => x (ix2 i d)

/-! ## The composed index functions of the generated stages, at coordinates -/

/-- The column of row norms is read at row i, column 0. -/
theorem idx_v2_ix (i : Fin 8192) (d : Fin 256) : idx_main_v2 (ix2 i d) = ix2 i (0 : Fin 1) :=
  funext fun a => match a with | ⟨0, _⟩ => rfl | ⟨1, _⟩ => rfl
theorem idx_call0_v2_ix (i : Fin 8192) (z : Fin 1) : idx_main_call0_v2 (ix2 i z) = ix1 i :=
  funext fun a => match a with | ⟨0, _⟩ => rfl
theorem idx_call0_v1_ix (i : Fin 8192) (k : Fin 256) : idx_main_call0_v1 (ix1 i) k = ix2 i k :=
  funext fun a => match a with | ⟨0, _⟩ => rfl | ⟨1, _⟩ => rfl
/-- The transposed matrix at (k, j) is the matrix at (j, k). -/
theorem idx_v4_ix (k : Fin 256) (j : Fin 8192) : idx_main_v4 (ix2 k j) = ix2 j k :=
  funext fun a => match a with | ⟨0, _⟩ => rfl | ⟨1, _⟩ => rfl
theorem lidx_v5_ix (i j : Fin 8192) (k : Fin 256) : lidx_main_v5 (ix2 i j) k = ix2 i k :=
  funext fun a => match a with | ⟨0, _⟩ => rfl | ⟨1, _⟩ => rfl
theorem ridx_v5_ix (i j : Fin 8192) (k : Fin 256) : ridx_main_v5 (ix2 i j) k = ix2 k j :=
  funext fun a => match a with | ⟨0, _⟩ => rfl | ⟨1, _⟩ => rfl

/-- The row maxima and the row totals, kept as columns, are read at row i. -/
theorem idx_v12_ix (i j : Fin 8192) : idx_main_v12 (ix2 i j) = ix2 i (0 : Fin 1) :=
  funext fun a => match a with | ⟨0, _⟩ => rfl | ⟨1, _⟩ => rfl
theorem idx_v11_ix (i : Fin 8192) (z : Fin 1) : idx_main_v11 (ix2 i z) = ix1 i :=
  funext fun a => match a with | ⟨0, _⟩ => rfl
theorem idx_v17_ix (i j : Fin 8192) : idx_main_v17 (ix2 i j) = ix2 i (0 : Fin 1) :=
  funext fun a => match a with | ⟨0, _⟩ => rfl | ⟨1, _⟩ => rfl
theorem idx_v16_ix (i : Fin 8192) (z : Fin 1) : idx_main_v16 (ix2 i z) = ix1 i :=
  funext fun a => match a with | ⟨0, _⟩ => rfl
theorem idx_v15_ix (i k : Fin 8192) : idx_main_v15 (ix1 i) k = ix2 i k :=
  funext fun a => match a with | ⟨0, _⟩ => rfl | ⟨1, _⟩ => rfl
theorem lidx_v19_ix (i : Fin 8192) (d : Fin 256) (k : Fin 8192) : lidx_main_v19 (ix2 i d) k = ix2 i k :=
  funext fun a => match a with | ⟨0, _⟩ => rfl | ⟨1, _⟩ => rfl
theorem ridx_v19_ix (i : Fin 8192) (d : Fin 256) (k : Fin 8192) : ridx_main_v19 (ix2 i d) k = ix2 k d :=
  funext fun a => match a with | ⟨0, _⟩ => rfl | ⟨1, _⟩ => rfl

/-! ## The row norm, the normalized matrix, the similarities -/

/-- The clamped row norm at row i: the maximum of eps and the square root of the row's sum of squares. -/
theorem nrm_at (x : (⟨S8192x256, .f32⟩ : BufTy).Contents (Elt Ideal)) (i : Fin 8192) (z : Fin 1) :
    val_main_v1 (F := Ideal) x (ix2 i z) = Cert.Attn.nrm (mat x) i := by
  rw [val_main_v1_apply, val_main_call1_v1_apply, val_main_call1_v0_apply, val_main_cst_apply,
    val_main_v0_apply, val_main_call0_v2_apply, idx_call0_v2_ix, val_main_call0_v1_apply, val_main_call0_cst_apply]
  simp only [idx_call0_v1_ix, val_main_call0_v0_apply, Ideal.maximumf_def, Ideal.hostUnary_sqrt_def, Ideal.mulf_def,
    Ideal.ofBits_def, Ideal.ofBits_zero_f32, zero_add]
  rfl

/-- The normalized matrix at (i, d). -/
theorem xn_at (x : (⟨S8192x256, .f32⟩ : BufTy).Contents (Elt Ideal)) (i : Fin 8192) (d : Fin 256) :
    val_main_v3 (F := Ideal) x (ix2 i d) = Cert.Attn.xn (mat x) i d := by
  rw [val_main_v3_apply, val_main_v2_apply, idx_v2_ix, nrm_at, Ideal.hostDivf_def]
  rfl

/-- The scaled similarity of rows i and j. -/
theorem W_at (x : (⟨S8192x256, .f32⟩ : BufTy).Contents (Elt Ideal)) (i j : Fin 8192) :
    val_main_v7 (F := Ideal) x (ix2 i j) = Cert.Attn.W (mat x) i j := by
  rw [val_main_v7_apply, val_main_v5_apply, val_main_v6_apply, val_main_cst_0_apply, Ideal.hostDivf_def, Ideal.ofBits_def]
  simp only [lidx_v5_ix, ridx_v5_ix, val_main_v4_apply, idx_v4_ix, xn_at]
  rfl

/-! ## The row maximum -/

/-- The word 0xFF800000 is -∞. -/
theorem ofBits_neg_inf : Ideal.ofBits .f32 0xFF800000#32 = (⊥ : EReal) := by simp [Ideal.ofBits, Ideal.ieee]

/-- A row of the similarity matrix with the column coordinate inserted: the index (i, k). -/
theorem lift_row (h : S8192x8192.Reduces [1] S8192) (i k : Fin 8192) : h.lift (ix1 i) k = ix2 i k :=
  funext fun a => Fin.ext (by match a with | ⟨0, _⟩ => rfl | ⟨1, _⟩ => rfl)

/-- The maximum-reduce over the columns, at row i, is the fold of max from -∞ over the row of similarities. -/
theorem v8_at (x : (⟨S8192x256, .f32⟩ : BufTy).Contents (Elt Ideal)) (i : Fin 8192) :
    val_main_v8 (F := Ideal) x (ix1 i) = Cert.Attn.rowMax (mat x) i := by
  unfold val_main_v8
  generalize hy : val_main_v7 (F := Ideal) x = y
  have hW : ∀ k : Fin 8192, y (ix2 i k) = Cert.Attn.W (mat x) i k := fun k => by rw [← hy]; exact W_at x i k
  have h : S8192x8192.Reduces [1] S8192 := by decide
  refine (Host.reduce_eq_fold_single (FloatOps.maximumf (F := Ideal) (φ := .f32)) y (val_main_cst_1 (F := Ideal))
    Gen.reducesTo_S8192x8192_S8192_d1 h Gen.h_S_ (ix1 i)).trans ?_
  rw [val_main_cst_1_apply, Ideal.ofBits_def, ofBits_neg_inf]
  unfold Cert.Attn.rowMax
  exact Finset.fold_congr (fun k _ => by
    show y (h.lift (ix1 i) k) = _
    rw [lift_row h i k]; exact hW k)

/-- The row maximum as the program takes it: the maximum of -∞ and the reduce. -/
theorem rowMax_at (x : (⟨S8192x256, .f32⟩ : BufTy).Contents (Elt Ideal)) (i : Fin 8192) :
    val_main_v10 (F := Ideal) x (ix1 i) = Cert.Attn.rowMax (mat x) i := by
  rw [val_main_v10_apply, val_main_v9_apply, val_main_cst_2_apply, v8_at, Ideal.ofBits_def, ofBits_neg_inf,
    Ideal.maximumf_def]
  exact max_eq_right bot_le

/-! ## The weights and the result -/

/-- The exponential of the shifted similarity at (i, j). -/
theorem exp_at (x : (⟨S8192x256, .f32⟩ : BufTy).Contents (Elt Ideal)) (i j : Fin 8192) :
    val_main_v14 (F := Ideal) x (ix2 i j) = Ideal.exp (Cert.Attn.W (mat x) i j - Cert.Attn.rowMax (mat x) i) := by
  rw [val_main_v14_apply, val_main_v13_apply, W_at, val_main_v12_apply, idx_v12_ix, val_main_v11_apply, idx_v11_ix,
    rowMax_at, Ideal.hostUnary_exp_def, Ideal.subf_def]

/-- The row total of the exponentials. -/
theorem total_at (x : (⟨S8192x256, .f32⟩ : BufTy).Contents (Elt Ideal)) (i : Fin 8192) :
    val_main_v15 (F := Ideal) x (ix1 i)
      = ∑ k : Fin 8192, Ideal.exp (Cert.Attn.W (mat x) i k - Cert.Attn.rowMax (mat x) i) := by
  rw [val_main_v15_apply, val_main_cst_3_apply, Ideal.ofBits_def, Ideal.ofBits_zero_f32, zero_add]
  simp only [idx_v15_ix, exp_at]

/-- The normalized weight at (i, j). -/
theorem weight_at (x : (⟨S8192x256, .f32⟩ : BufTy).Contents (Elt Ideal)) (i j : Fin 8192) :
    val_main_v18 (F := Ideal) x (ix2 i j)
      = Ideal.div (Ideal.exp (Cert.Attn.W (mat x) i j - Cert.Attn.rowMax (mat x) i))
          (∑ k : Fin 8192, Ideal.exp (Cert.Attn.W (mat x) i k - Cert.Attn.rowMax (mat x) i)) := by
  rw [val_main_v18_apply, exp_at, val_main_v17_apply, idx_v17_ix, val_main_v16_apply, idx_v16_ix, total_at,
    Ideal.hostDivf_def]

/-- The result at (i, d): the weighted sum of column d. -/
theorem ref_at (x : (⟨S8192x256, .f32⟩ : BufTy).Contents (Elt Ideal)) (i : Fin 8192) (d : Fin 256) :
    val_main_v19 (F := Ideal) x (ix2 i d) = Cert.Attn.attnMax (mat x) i d := by
  rw [val_main_v19_apply]
  simp only [lidx_v19_ix, ridx_v19_ix, weight_at]
  rfl

/-- The reference's result is attention with the row maximum as the shift, index by index. -/
theorem ref_eq (x : (⟨S8192x256, .f32⟩ : BufTy).Contents (Elt Ideal)) :
    val_main_v19 (F := Ideal) x = fun idx => Cert.Attn.attnMax (fun i d => x (ix2 i d)) (idx 0) (idx 1) := by
  funext idx
  obtain ⟨i, d, rfl⟩ : ∃ (i : Fin 8192) (d : Fin 256), idx = ix2 i d := ⟨idx 0, idx 1, eq_ix2 idx⟩
  exact ref_at x i d

/-- The same, stated on the term the reference's run names: on each device the result buffer after the run is
    attention with the row maximum as the shift of the argument buffer's launch contents. -/
theorem res_eq (m : (ℓ : Loc nD τ sig) → Buf (Elt Ideal) ℓ) (c : Dev nD) :
    Cert.ReferenceIdeal.Value.res_main_v19 (F := Ideal) m c
      = fun idx => Cert.Attn.attnMax
          (fun i d => m ((c.tc : Thread nD τ).loc main_arg0) (ix2 i d)) (idx 0) (idx 1) :=
  (val_main_v19_eq (F := Ideal) m c).trans (ref_eq _)

end Cert.ReferenceIdeal.RefValue

end
-- ==== Proof.SoftmaxShift.lean ====
/-
  Softmax attention with the row maximum as the shift equals softmax attention with a constant
  shift, on a matrix of real entries.

  Every quantity of the specification is then the coercion of a real number: the three constants
  (with eps > 0 and sigma ≠ 0), each clamped row norm (a real ≥ eps > 0), the normalized matrix, the
  similarities W, the row maximum of W (a maximum over the nonempty index set of reals) and the
  exponentials (positive reals), so every division is a division of reals by a nonzero real.
  Over the reals, e^(w - M) = e^(w - c) · e^(c - M), and the common factor e^(c - M) cancels between
  each weight and the total.
-/
import proofs.«125116_j16844861735534_2_alg».proof.Proof.Spec

noncomputable section

namespace Cert.Attn

open Idealize.ShloMosaic

/-! ### The identity over the reals -/

/-- Normalizing each weight e^(w j - M) by the total and then summing against v is the quotient of
    the weighted sum by the total for any other shift c: the factor e^(c - M) cancels. -/
theorem real_softmax_shift {ι : Type*} [Fintype ι] (w v : ι → ℝ) (M c : ℝ) :
    ∑ j, (Real.exp (w j - M) / ∑ k, Real.exp (w k - M)) * v j
      = (∑ j, Real.exp (w j - c) * v j) / (∑ j, Real.exp (w j - c)) := by
  have hK : ∀ j, Real.exp (w j - M) = Real.exp (w j - c) * Real.exp (c - M) := by
    intro j
    rw [← Real.exp_add]
    congr 1
    ring
  have hKne : Real.exp (c - M) ≠ 0 := (Real.exp_pos _).ne'
  simp only [hK]
  rw [← Finset.sum_mul, Finset.sum_div]
  refine Finset.sum_congr rfl (fun j _ => ?_)
  rw [mul_div_mul_right _ _ hKne]
  ring

/-! ### Coercions of reals -/

/-- An extended real that is neither infinity is a real. -/
theorem exists_coe_of_ne {y : EReal} (ht : y ≠ ⊤) (hb : y ≠ ⊥) : ∃ a : ℝ, y = (a : EReal) :=
  ⟨y.toReal, (EReal.coe_toReal ht hb).symm⟩

/-- A finite sum of reals, coerced termwise. -/
theorem coe_sum {ι : Type*} (s : Finset ι) (f : ι → ℝ) :
    ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The maximum of two reals, coerced. -/
theorem coe_max (a b : ℝ) : max (a : EReal) (b : EReal) = ((max a b : ℝ) : EReal) :=
  (EReal.coe_strictMono.monotone.map_max).symm

/-- A quotient of reals by a nonzero real. -/
theorem div_coe_coe (a : ℝ) {b : ℝ} (hb : b ≠ 0) :
    Ideal.div (a : EReal) (b : EReal) = ((a / b : ℝ) : EReal) := by
  rw [Ideal.div, if_neg (by exact_mod_cast hb), ← EReal.coe_inv, ← EReal.coe_mul, div_eq_mul_inv]

/-- The exponential of a difference of reals. -/
theorem exp_coe_sub (a b : ℝ) :
    Ideal.exp ((a : EReal) - (b : EReal)) = ((Real.exp (a - b) : ℝ) : EReal) := by
  rw [← EReal.coe_sub, Ideal.exp_coe]

/-- The maximum, folded from -∞, of a nonempty family of reals is a real. -/
theorem fold_max_coe {ι : Type*} [DecidableEq ι] (s : Finset ι) (hs : s.Nonempty) (f : ι → ℝ) :
    ∃ m : ℝ, s.fold max ⊥ (fun j => (f j : EReal)) = (m : EReal) := by
  induction s using Finset.induction_on with
  | empty => exact absurd hs Finset.not_nonempty_empty
  | insert a s ha ih =>
    rw [Finset.fold_insert ha]
    rcases s.eq_empty_or_nonempty with rfl | hne
    · exact ⟨f a, by rw [Finset.fold_empty, max_eq_left bot_le]⟩
    · obtain ⟨m, hm⟩ := ih hne
      exact ⟨max (f a) m, by rw [hm, coe_max]⟩

/-! ### The constants -/

theorem eps_coe : ∃ e : ℝ, 0 < e ∧ eps = (e : EReal) := by
  refine ⟨9223372 * (2 ^ 63)⁻¹, by positivity, ?_⟩
  simp [eps, Ideal.ofBits, Ideal.ieee]

theorem sigma_coe : ∃ s : ℝ, s ≠ 0 ∧ sigma = (s : EReal) := by
  refine ⟨13421773 * (2 ^ 27)⁻¹, by positivity, ?_⟩
  simp [sigma, Ideal.ofBits, Ideal.ieee]

theorem bound_coe : ∃ c : ℝ, bound = (c : EReal) := by
  refine ⟨11010048 * (2 ^ 20)⁻¹, ?_⟩
  simp [bound, Ideal.ofBits, Ideal.ieee]

/-! ### The quantities of the specification on a real matrix -/

section
variable {x : Mat} {r : Fin 8192 → Fin 256 → ℝ}

/-- The clamped row norm is a positive real. -/
theorem nrm_coe (hx : ∀ i d, x i d = (r i d : EReal)) (i : Fin 8192) :
    ∃ n : ℝ, 0 < n ∧ nrm x i = (n : EReal) := by
  obtain ⟨e, he, hee⟩ := eps_coe
  refine ⟨max e (Real.sqrt (∑ d, r i d * r i d)), lt_max_of_lt_left he, ?_⟩
  have hs : ∑ d : Fin 256, x i d * x i d = ((∑ d, r i d * r i d : ℝ) : EReal) := by
    rw [← coe_sum]
    exact Finset.sum_congr rfl (fun d _ => by rw [hx, EReal.coe_mul])
  have h0 : ¬ (∑ d, r i d * r i d) < 0 :=
    not_lt.mpr (Finset.sum_nonneg (fun d _ => mul_self_nonneg _))
  rw [nrm, hs, Ideal.sqrt_coe, if_neg h0, hee, coe_max]

/-- The normalized matrix is real. -/
theorem xn_coe (hx : ∀ i d, x i d = (r i d : EReal)) (i : Fin 8192) (d : Fin 256) :
    ∃ a : ℝ, xn x i d = (a : EReal) := by
  obtain ⟨n, hn, hnn⟩ := nrm_coe hx i
  exact ⟨r i d / n, by rw [xn, hx, hnn, div_coe_coe _ hn.ne']⟩

/-- The similarities are real. -/
theorem W_coe (hx : ∀ i d, x i d = (r i d : EReal)) (i j : Fin 8192) :
    ∃ w : ℝ, W x i j = (w : EReal) := by
  obtain ⟨s, hs, hss⟩ := sigma_coe
  choose a ha using fun d => xn_coe hx i d
  choose b hb using fun d => xn_coe hx j d
  refine ⟨(∑ d, a d * b d) / s, ?_⟩
  have hsum : ∑ d : Fin 256, xn x i d * xn x j d = ((∑ d, a d * b d : ℝ) : EReal) := by
    rw [← coe_sum]
    exact Finset.sum_congr rfl (fun d _ => by rw [ha, hb, EReal.coe_mul])
  rw [W, hsum, hss, div_coe_coe _ hs]

/-- The row maximum of the similarities is real. -/
theorem rowMax_coe (hx : ∀ i d, x i d = (r i d : EReal)) (i : Fin 8192) :
    ∃ M : ℝ, rowMax x i = (M : EReal) := by
  choose w hw using fun j => W_coe hx i j
  have hfun : (fun j => W x i j) = fun j => (w j : EReal) := funext hw
  rw [rowMax, hfun]
  exact fold_max_coe Finset.univ Finset.univ_nonempty w

end

/-! ### The two attentions agree -/

theorem attnMax_eq_attnShift (x : Mat) (hx : Finite x) (i : Fin 8192) (d : Fin 256) :
    attnMax x i d = attnShift x i d := by
  choose r hr using fun i d => exists_coe_of_ne (hx i d).1 (hx i d).2
  choose w hw using fun j => W_coe hr i j
  obtain ⟨M, hM⟩ := rowMax_coe hr i
  obtain ⟨c, hc⟩ := bound_coe
  have hTM : ∑ k : Fin 8192, Ideal.exp (W x i k - rowMax x i)
      = ((∑ k, Real.exp (w k - M) : ℝ) : EReal) := by
    rw [← coe_sum]
    exact Finset.sum_congr rfl (fun k _ => by rw [hw, hM, exp_coe_sub])
  have hTMpos : (0 : ℝ) < ∑ k : Fin 8192, Real.exp (w k - M) :=
    Finset.sum_pos (fun k _ => Real.exp_pos _) Finset.univ_nonempty
  have hTc : ∑ k : Fin 8192, Ideal.exp (W x i k - bound)
      = ((∑ k, Real.exp (w k - c) : ℝ) : EReal) := by
    rw [← coe_sum]
    exact Finset.sum_congr rfl (fun k _ => by rw [hw, hc, exp_coe_sub])
  have hTcpos : (0 : ℝ) < ∑ k : Fin 8192, Real.exp (w k - c) :=
    Finset.sum_pos (fun k _ => Real.exp_pos _) Finset.univ_nonempty
  have hNum : ∑ j : Fin 8192, Ideal.exp (W x i j - bound) * x j d
      = ((∑ j, Real.exp (w j - c) * r j d : ℝ) : EReal) := by
    rw [← coe_sum]
    exact Finset.sum_congr rfl (fun j _ => by rw [hw, hc, exp_coe_sub, hr, EReal.coe_mul])
  have hL : attnMax x i d
      = ((∑ j, (Real.exp (w j - M) / ∑ k, Real.exp (w k - M)) * r j d : ℝ) : EReal) := by
    rw [attnMax, hTM]
    refine Eq.trans (Finset.sum_congr rfl (fun j _ => ?_))
      (coe_sum Finset.univ (fun j => (Real.exp (w j - M) / ∑ k, Real.exp (w k - M)) * r j d))
    rw [hw, hM, exp_coe_sub, div_coe_coe _ hTMpos.ne', hr, EReal.coe_mul]
  have hR : attnShift x i d
      = (((∑ j, Real.exp (w j - c) * r j d) / (∑ j, Real.exp (w j - c)) : ℝ) : EReal) := by
    rw [attnShift, hNum, hTc, div_coe_coe _ hTcpos.ne']
  rw [hL, hR, real_softmax_shift w (fun j => r j d) M c]

end Cert.Attn

end
-- ==== Proof.FiniteInputs.lean ====
/-
  From the generated precondition to finiteness of the input matrix.

  The precondition is the conjunction, over every entry y of the matrix, of |y| < +∞, where |y| is
  max y (-y) on the extended reals and +∞ is the value of the pattern 0x7F800000. A conjunction that
  holds, holds at every entry; and an extended real whose absolute value is below +∞ is neither +∞
  (|+∞| = +∞) nor -∞ (|-∞| = +∞), that is, it is a real number.
-/
import proofs.«125116_j16844861735534_2_alg».proof.Pre_finite_inputs
import proofs.«125116_j16844861735534_2_alg».proof.Proof.Spec
import Idealize.ShloMosaic.Lib.ReduceAll
import Idealize.ShloMosaic.Lib.ValueIdx

namespace Cert.Attn

open Idealize.ShloMosaic

/-- An extended real whose absolute value is below +∞ is neither infinity. -/
theorem ne_top_bot_of_abs_lt {y : EReal}
    (h : Ideal.cmp .olt (max y (-y)) (Ideal.ofBits .f32 0x7F800000#32) = 1#1) : y ≠ ⊤ ∧ y ≠ ⊥ := by
  have htop : Ideal.ofBits .f32 0x7F800000#32 = ⊤ := by simp [Ideal.ofBits, Ideal.ieee]
  rw [htop] at h
  induction y using EReal.rec with
  | bot => simp [Ideal.cmp] at h
  | top => simp [Ideal.cmp] at h
  | coe r => exact ⟨EReal.coe_ne_top r, EReal.coe_ne_bot r⟩

/-- Under the precondition every entry of the matrix is a real number. -/
theorem finite_of_pre [Cert.Pre_finite_inputs.Facts]
    (a : FVec Ideal Cert.Pre_finite_inputs.S8192x256 .f32)
    (h : Cert.Pre_finite_inputs.fn (F := Ideal) a = fun _ => 1#1) :
    Finite (fun i d => a (ValueIdx.ix2 i d)) := by
  intro i d
  have h0 := congrFun h ValueIdx.ix0
  dsimp only [Cert.Pre_finite_inputs.fn] at h0
  haveI : Subsingleton Cert.Pre_finite_inputs.S_.Idx := ⟨fun a b => funext fun d => d.elim0⟩
  have he := Host.reduce_andi_all _ _ _ _ _ h0 (ValueIdx.ix2 i d)
  exact ne_top_bot_of_abs_lt he

end Cert.Attn
-- ==== Proof.lean ====
/-
  A Pallas kernel for cosine-similarity attention against its jax.numpy reference, at the ideal instance.

  The kernel runs in two launches. The first normalizes each row of the argument by its Euclidean norm
  (clamped below at a constant) and also copies the argument. The second is attention over blocks: for a
  block of 2048 query rows it walks the 16 blocks of 512 key rows, keeping in scratch memory the running
  row totals of the weights exp (w - 10.5), w the scaled cosine similarity, and the running weighted sums of the
  value rows; after the last key block it stores the quotient. The reference computes the same similarity,
  takes jax's softmax of each row — exponentials shifted by the ROW MAXIMUM, divided by their total — and
  multiplies by the argument.

  The two results are the same function of the argument wherever the argument's entries are real numbers:
  a shift under the exponential multiplies every weight of a row by one positive constant, which the quotient
  cancels (Proof/SoftmaxShift.lean). That law needs finiteness — on the extended reals it fails at the
  infinities — and the precondition supplies it (Proof/FiniteInputs.lean).

  The frames (both programs of the kernel run to the end, fault nowhere and leave the argument as launched) are
  proved launch by launch: Proof/KernelRegion0.lean … Proof/KernelRun.lean for the word-level program, and the
  same modules under the KernelIdeal names for the idealized one; the reference's frame is its generated run
  with the result dropped. No operation of the kernel was rewritten by the idealization, so there is nothing to
  preserve. The value of the kernel is read off its run in Proof/KernelIdealValue0.lean (first launch),
  Proof/KernelIdealValue1.lean (second launch) and Proof/KernelIdealValue.lean (both together); the reference's
  in Proof/RefValue.lean.
-/
import proofs.«125116_j16844861735534_2_alg».proof.Defs
import proofs.«125116_j16844861735534_2_alg».proof.Proof.Gen.Kernel
import proofs.«125116_j16844861735534_2_alg».proof.Proof.Gen.KernelIdeal
import proofs.«125116_j16844861735534_2_alg».proof.Proof.Gen.ReferenceIdeal
import proofs.«125116_j16844861735534_2_alg».proof.Proof.Gen.Pre_finite_inputs
import proofs.«125116_j16844861735534_2_alg».proof.Proof.KernelRun
import proofs.«125116_j16844861735534_2_alg».proof.Proof.KernelIdealRun
import proofs.«125116_j16844861735534_2_alg».proof.Proof.KernelIdealValue
import proofs.«125116_j16844861735534_2_alg».proof.Proof.RefValue
import proofs.«125116_j16844861735534_2_alg».proof.Proof.SoftmaxShift
import proofs.«125116_j16844861735534_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_k : Cert.frame_Kernel (hKernel := Cert.Kernel.Gen.facts) (hPre_finite_inputs := Cert.Pre_finite_inputs.Gen.facts) :=
  fun m ρ _ => Cert.Kernel.Hand.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with attention of the argument: the kernel with the constant shift, the reference with the
    row maximum as the shift; on an argument of real entries the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun idx => Cert.Attn.attnShift (Cert.KernelIdeal.HandValue.argMat m c) (idx 0) (idx 1), ?_, ?_⟩
  · exact (θ_run Cert.KernelIdeal.defs _ _).mono
      (fun _ h c => ⟨(h c).1.trans (Cert.KernelIdeal.HandValue.kernel_eq m c), (h c).2⟩)
      (Cert.KernelIdeal.Hand.run_value m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.res_eq, hagree c]
    funext idx
    exact Cert.Attn.attnMax_eq_attnShift _ (Cert.Attn.finite_of_pre _ (hpre c)) (idx 0) (idx 1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
